-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x256 : Shape := ⟨2, ![320000, 256]⟩
abbrev S320000 : Shape := ⟨1, ![320000]⟩
abbrev S256x50 : Shape := ⟨2, ![256, 50]⟩
abbrev S50 : Shape := ⟨1, ![50]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x50 : S_.BroadcastsInDim S256x50 (![] : Fin 0 → Fin S256x50.rank)
  reducesTo_S256x50_S_d0_1 : S256x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_arg6 : FVec F S50 .f32) (main_v13 : IVec S_ 1) (main_v16 : IVec S256x50 1) : IVec S_ 1 :=
  let main_c_5 : IVec S_ 1 := constantI S_ 1 1#1
  let main_v17 : IVec S_ 1 := (fun x v => Host.reduce IntOp.andi x v reducesTo_S256x50_S_d0_1 h_S_) main_v16 main_c_5
  let main_v18 : IVec S_ 1 := andi main_v13 main_v17
  let main_v19 : FVec F S50 .f32 := Host.absf main_arg6
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  main_v23

def fn {F : FTy → Type} [FloatOps F] (main_arg0 : FVec F S20000x256 .f32) (main_arg1 : FVec F S320000x256 .f32) (main_arg2 : FVec F S20000x256 .f32) (main_arg3 : IVec S320000 32) (main_arg4 : IVec S320000 32) (main_arg5 : FVec F S256x50 .f32) (main_arg6 : FVec F S50 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S20000x256 .f32 := Host.absf main_arg2
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S256x50 .f32 := Host.absf main_arg5
  let main_cst_4 : FVec F S_ .f32 := constant S_ .f32 0x7F800000#32
  let main_v15 : FVec F S256x50 .f32 := broadcastInDim S256x50 ![] bcast_S_S256x50 main_cst_4
  let main_v16 : IVec S256x50 1 := cmpf .olt main_v14 main_v15
  fn_part1 (F := F) main_arg6 main_v13 main_v16
-- ==== Kernel.lean ====
abbrev S20000x256 : Shape := ⟨2, ![20000, 256]⟩
abbrev S320000x256 : Shape := ⟨2, ![320000, 256]⟩
abbrev S320000 : Shape := ⟨1, ![320000]⟩
abbrev S256x50 : Shape := ⟨2, ![256, 50]⟩
abbrev S50 : Shape := ⟨1, ![50]⟩
abbrev S20000x512 : Shape := ⟨2, ![20000, 512]⟩
abbrev S_ : Shape := ⟨0, ![]⟩
abbrev S320000x1 : Shape := ⟨2, ![320000, 1]⟩
abbrev S320000x512 : Shape := ⟨2, ![320000, 512]⟩
abbrev S20000x16x512 : Shape := ⟨3, ![20000, 16, 512]⟩
abbrev S20000x16x256 : Shape := ⟨3, ![20000, 16, 256]⟩
abbrev S20000x50 : Shape := ⟨2, ![20000, 50]⟩
abbrev S160x16x512 : Shape := ⟨3, ![160, 16, 512]⟩
abbrev S160x16x256 : Shape := ⟨3, ![160, 16, 256]⟩
abbrev S160x50 : Shape := ⟨2, ![160, 50]⟩
abbrev S2560x256 : Shape := ⟨2, ![2560, 256]⟩
abbrev S2560x50 : Shape := ⟨2, ![2560, 50]⟩
abbrev S1x50 : Shape := ⟨2, ![1, 50]⟩
abbrev S160x16x50 : Shape := ⟨3, ![160, 16, 50]⟩
abbrev S160x256 : Shape := ⟨2, ![160, 256]⟩
abbrev S160x1x256 : Shape := ⟨3, ![160, 1, 256]⟩
abbrev S160x1x50 : Shape := ⟨3, ![160, 1, 50]⟩
abbrev S160x17x50 : Shape := ⟨3, ![160, 17, 50]⟩
abbrev S160x17x1x50 : Shape := ⟨4, ![160, 17, 1, 50]⟩
abbrev S160x1x17x50 : Shape := ⟨4, ![160, 1, 17, 50]⟩
abbrev S160x17x17x50 : Shape := ⟨4, ![160, 17, 17, 50]⟩
abbrev S160x17x17 : Shape := ⟨3, ![160, 17, 17]⟩
abbrev S160x17 : Shape := ⟨2, ![160, 17]⟩
abbrev S160x17x1 : Shape := ⟨3, ![160, 17, 1]⟩
abbrev S160x17x17x1 : Shape := ⟨4, ![160, 17, 17, 1]⟩

abbrev nBuf : Space → Nat
  | .hbm => 22
  | .vmem => 8
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S20000x256, .f32⟩
  | .hbm, ⟨3, _⟩ => ⟨S320000, .i32⟩
  | .hbm, ⟨4, _⟩ => ⟨S320000, .i32⟩
  | .hbm, ⟨5, _⟩ => ⟨S256x50, .f32⟩
  | .hbm, ⟨6, _⟩ => ⟨S50, .f32⟩
  | .hbm, ⟨7, _⟩ => ⟨S20000x512, .f32⟩
  | .hbm, ⟨8, _⟩ => ⟨S20000x512, .bf16⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x512, .bf16⟩
  | .hbm, ⟨18, _⟩ => ⟨S320000x256, .bf16⟩
  | .hbm, ⟨19, _⟩ => ⟨S20000x16x512, .bf16⟩
  | .hbm, ⟨20, _⟩ => ⟨S20000x16x256, .bf16⟩
  | .hbm, ⟨21, _⟩ => ⟨S20000x50, .f32⟩
  | .local _ .vmem, ⟨0, _⟩ => ⟨S160x16x512, .bf16⟩
  | .local _ .vmem, ⟨1, _⟩ => ⟨S160x16x512, .bf16⟩
  | .local _ .vmem, ⟨2, _⟩ => ⟨S160x16x256, .bf16⟩
  | .local _ .vmem, ⟨3, _⟩ => ⟨S160x16x256, .bf16⟩
  | .local _ .vmem, ⟨4, _⟩ => ⟨S256x50, .f32⟩
  | .local _ .vmem, ⟨5, _⟩ => ⟨S50, .f32⟩
  | .local _ .vmem, ⟨6, _⟩ => ⟨S160x50, .f32⟩
  | .local _ .vmem, ⟨7, _⟩ => ⟨S160x50, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S160x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S20000x256_S20000x256_S20000x512_d1 : Shape.Concatenates [S20000x256, S20000x256] S20000x512 1
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  shapeCasts_S320000x512_S20000x16x512 : S320000x512.ShapeCasts S20000x16x512
  shapeCasts_S320000x256_S20000x16x256 : S320000x256.ShapeCasts S20000x16x256
  inb_S160x16x512_S160x16x512_0_0_0 : ∀ a, (![0, 0, 0] : Fin 3 → Nat) a + S160x16x512.size a ≤ S160x16x512.size a
  h_S160x16x512 : 0 < S160x16x512.numel
  shapeCasts_S160x16x512_S160x16x512 : S160x16x512.ShapeCasts S160x16x512
  slices_S160x16x512_o0_0_0_S160x16x256 : S160x16x512.Slices ![0, 0, 0] S160x16x256
  slices_S160x16x512_o0_0_256_S160x16x256 : S160x16x512.Slices ![0, 0, 256] S160x16x256
  inb_S160x16x256_S160x16x256_0_0_0 : ∀ a, (![0, 0, 0] : Fin 3 → Nat) a + S160x16x256.size a ≤ S160x16x256.size a
  h_S160x16x256 : 0 < S160x16x256.numel
  shapeCasts_S160x16x256_S160x16x256 : S160x16x256.ShapeCasts S160x16x256
  inb_S256x50_S256x50_0_0 : ∀ a, (![0, 0] : Fin 2 → Nat) a + S256x50.size a ≤ S256x50.size a
  h_S256x50 : 0 < S256x50.numel
  inb_S50_S50_0 : ∀ a, (![0] : Fin 1 → Nat) a + S50.size a ≤ S50.size a
  h_S50 : 0 < S50.numel
  shapeCasts_S160x16x256_S2560x256 : S160x16x256.ShapeCasts S2560x256
  shapeCasts_S50_S1x50 : S50.ShapeCasts S1x50
  broadcasts_S1x50_S2560x50 : S1x50.Broadcasts S2560x50
  shapeCasts_S2560x50_S160x16x50 : S2560x50.ShapeCasts S160x16x50
  reduces_S160x16x256_S160x256 : S160x16x256.Reduces [1] S160x256
  shapeCasts_S160x256_S160x1x256 : S160x256.ShapeCasts S160x1x256
  shapeCasts_S160x1x256_S160x256 : S160x1x256.ShapeCasts S160x256
  broadcasts_S1x50_S160x50 : S1x50.Broadcasts S160x50
  shapeCasts_S160x50_S160x1x50 : S160x50.ShapeCasts S160x1x50
  concatenates_S160x16x50_S160x1x50_S160x17x50_d1 : Shape.Concatenates [S160x16x50, S160x1x50] S160x17x50 1
  iota_S160x17x50_d2_w32 : S160x17x50.Iotas .tc 32 [2]
  shapeCasts_S160x17x50_S160x17x1x50 : S160x17x50.ShapeCasts S160x17x1x50
  shapeCasts_S160x17x50_S160x1x17x50 : S160x17x50.ShapeCasts S160x1x17x50
  broadcasts_S160x17x1x50_S160x17x17x50 : S160x17x1x50.Broadcasts S160x17x17x50
  broadcasts_S160x1x17x50_S160x17x17x50 : S160x1x17x50.Broadcasts S160x17x17x50
  reduces_S160x17x17x50_S160x17x17 : S160x17x17x50.Reduces [3] S160x17x17
  reduces_S160x17x17_S160x17 : S160x17x17.Reduces [2] S160x17
  shapeCasts_S160x17_S160x17x1 : S160x17.ShapeCasts S160x17x1
  broadcasts_S160x17x1_S160x17x17 : S160x17x1.Broadcasts S160x17x17
  shapeCasts_S160x17x17_S160x17x17x1 : S160x17x17.ShapeCasts S160x17x17x1
  broadcasts_S160x17x17x1_S160x17x17x50 : S160x17x17x1.Broadcasts S160x17x17x50
  reduces_S160x17x17x50_S160x17x50 : S160x17x17x50.Reduces [2] S160x17x50
  reduces_S160x17x50_S160x50 : S160x17x50.Reduces [1] S160x50
  inb_S160x50_S160x50_0_0 : ∀ a, (![0, 0] : Fin 2 → Nat) a + S160x50.size a ≤ S160x50.size a
  h_S160x50 : 0 < S160x50.numel
  gather_S20000x512_S320000x1_S320000x512_1_0_n_n_0_1_1512_wf : GatherDims.WF S20000x512 S320000x1 S320000x512 [1] [0] [] [0] [] 1 ![1, 512]
  dot_S2560x256_S256x50_S2560x50_1_0_0_1_n_n_wf : DotDims.WF S2560x256 S256x50 S2560x50 [1] [0] [0] [1] [] []
  dot_S160x256_S256x50_S160x50_1_0_0_1_n_n_wf : DotDims.WF S160x256 S256x50 S160x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x16x512.size a ≤ S20000x16x512.size a
  hwx0_0 : ∀ i : grid0.Coords, EltTy.bits .bf16 = 32 ∨ (Rect.block (s := S20000x16x512) S160x16x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S160x16x256.size a ≤ S20000x16x256.size a
  hwx0_1 : ∀ i : grid0.Coords, EltTy.bits .bf16 = 32 ∨ (Rect.block (s := S20000x16x256) S160x16x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x50.size a ≤ S256x50.size a
  hwx0_2 : ∀ i : grid0.Coords, EltTy.bits .f32 = 32 ∨ (Rect.block (s := S256x50) S256x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S160x50.size a ≤ S20000x50.size a
  hwx0_4 : ∀ i : grid0.Coords, EltTy.bits .f32 = 32 ∨ (Rect.block (s := S20000x50) S160x50.size (cc0_transform_4 i) (hinb0_4 i)).WholeWords (EltTy.packing .f32)

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def dot_S2560x256_S256x50_S2560x50_1_0_0_1_n_n : DotDims S2560x256 S256x50 S2560x50 where
  lhsContracting := [1]
  rhsContracting := [0]
  lhsNonContracting := [0]
  rhsNonContracting := [1]
  lhsBatch := []
  rhsBatch := []
  wf := dot_S2560x256_S256x50_S2560x50_1_0_0_1_n_n_wf
def dot_S160x256_S256x50_S160x50_1_0_0_1_n_n : DotDims S160x256 S256x50 S160x50 where
  lhsContracting := [1]
  rhsContracting := [0]
  lhsNonContracting := [0]
  rhsNonContracting := [1]
  lhsBatch := []
  rhsBatch := []
  wf := dot_S160x256_S256x50_S160x50_1_0_0_1_n_n_wf

abbrev win0_0 : Pipeline.Window sig grid0 :=
  Pipeline.Window.ofSpec (Memref.whole main_v10) S160x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S160x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S160x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000x256 : Shape := ⟨2, ![20000, 256]⟩
abbrev S320000x256 : Shape := ⟨2, ![320000, 256]⟩
abbrev S320000 : Shape := ⟨1, ![320000]⟩
abbrev S256x50 : Shape := ⟨2, ![256, 50]⟩
abbrev S50 : Shape := ⟨1, ![50]⟩
abbrev S_ : Shape := ⟨0, ![]⟩
abbrev S320000x1 : Shape := ⟨2, ![320000, 1]⟩
abbrev S20000x16x256 : Shape := ⟨3, ![20000, 16, 256]⟩
abbrev S20000x16x50 : Shape := ⟨3, ![20000, 16, 50]⟩
abbrev S1x1x50 : Shape := ⟨3, ![1, 1, 50]⟩
abbrev S20000x1x256 : Shape := ⟨3, ![20000, 1, 256]⟩
abbrev S20000x1x50 : Shape := ⟨3, ![20000, 1, 50]⟩
abbrev S20000x17x50 : Shape := ⟨3, ![20000, 17, 50]⟩
abbrev S20000x17x5x10 : Shape := ⟨4, ![20000, 17, 5, 10]⟩
abbrev S20000x5x17x10 : Shape := ⟨4, ![20000, 5, 17, 10]⟩
abbrev S20000x5x17x17 : Shape := ⟨4, ![20000, 5, 17, 17]⟩
abbrev S20000x5x17 : Shape := ⟨3, ![20000, 5, 17]⟩
abbrev S20000x5x17x1 : Shape := ⟨4, ![20000, 5, 17, 1]⟩
abbrev S20000x50 : Shape := ⟨2, ![20000, 50]⟩

abbrev nBuf : Space → Nat
  | .hbm => 134
  | .vmem => 0
  | .smem => 0
  | _ => 0

abbrev hbmTy0_0 (i : Nat) : BufTy := match i % 128 with
  | 0 => ⟨S20000x256, .f32⟩
  | 1 => ⟨S320000x256, .f32⟩
  | 2 => ⟨S20000x256, .f32⟩
  | 3 => ⟨S320000, .i32⟩
  | 4 => ⟨S320000, .i32⟩
  | 5 => ⟨S256x50, .f32⟩
  | 6 => ⟨S50, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x256, .f32⟩
  | 16 => ⟨S320000x256, .f32⟩
  | 17 => ⟨S20000x16x256, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x256, .f32⟩
  | 27 => ⟨S320000x256, .f32⟩
  | 28 => ⟨S20000x16x256, .f32⟩
  | 29 => ⟨S_, .f32⟩
  | 30 => ⟨S20000x16x256, .f32⟩
  | 31 => ⟨S20000x16x256, .f32⟩
  | 32 => ⟨S20000x16x50, .f32⟩
  | 33 => ⟨S1x1x50, .f32⟩
  | 34 => ⟨S20000x16x50, .f32⟩
  | 35 => ⟨S20000x16x50, .f32⟩
  | 36 => ⟨S_, .f32⟩
  | 37 => ⟨S20000x256, .f32⟩
  | 38 => ⟨S20000x1x256, .f32⟩
  | 39 => ⟨S_, .f32⟩
  | 40 => ⟨S20000x1x256, .f32⟩
  | 41 => ⟨S20000x1x256, .f32⟩
  | 42 => ⟨S_, .f32⟩
  | 43 => ⟨S20000x1x256, .f32⟩
  | 44 => ⟨S20000x1x256, .f32⟩
  | 45 => ⟨S20000x1x50, .f32⟩
  | 46 => ⟨S1x1x50, .f32⟩
  | 47 => ⟨S20000x1x50, .f32⟩
  | 48 => ⟨S20000x1x50, .f32⟩
  | 49 => ⟨S20000x17x50, .f32⟩
  | 50 => ⟨S_, .f32⟩
  | 51 => ⟨S20000x16x256, .f32⟩
  | 52 => ⟨S20000x16x256, .f32⟩
  | 53 => ⟨S20000x16x50, .f32⟩
  | 54 => ⟨S1x1x50, .f32⟩
  | 55 => ⟨S20000x16x50, .f32⟩
  | 56 => ⟨S20000x16x50, .f32⟩
  | 57 => ⟨S_, .f32⟩
  | 58 => ⟨S20000x256, .f32⟩
  | 59 => ⟨S20000x1x256, .f32⟩
  | 60 => ⟨S_, .f32⟩
  | 61 => ⟨S20000x1x256, .f32⟩
  | 62 => ⟨S20000x1x256, .f32⟩
  | 63 => ⟨S_, .f32⟩
  | 64 => ⟨S20000x1x256, .f32⟩
  | 65 => ⟨S20000x1x256, .f32⟩
  | 66 => ⟨S20000x1x50, .f32⟩
  | 67 => ⟨S1x1x50, .f32⟩
  | 68 => ⟨S20000x1x50, .f32⟩
  | 69 => ⟨S20000x1x50, .f32⟩
  | 70 => ⟨S20000x17x50, .f32⟩
  | 71 => ⟨S20000x17x5x10, .f32⟩
  | 72 => ⟨S20000x5x17x10, .f32⟩
  | 73 => ⟨S20000x5x17x17, .f32⟩
  | 74 => ⟨S_, .f32⟩
  | 75 => ⟨S20000x5x17x17, .f32⟩
  | 76 => ⟨S20000x5x17x17, .f32⟩
  | 77 => ⟨S_, .f32⟩
  | 78 => ⟨S20000x5x17, .f32⟩
  | 79 => ⟨S_, .f32⟩
  | 80 => ⟨S20000x5x17, .f32⟩
  | 81 => ⟨S20000x5x17, .f32⟩
  | 82 => ⟨S20000x5x17x1, .f32⟩
  | 83 => ⟨S20000x5x17x17, .f32⟩
  | 84 => ⟨S20000x5x17x17, .f32⟩
  | 85 => ⟨S20000x5x17x17, .f32⟩
  | 86 => ⟨S_, .f32⟩
  | 87 => ⟨S20000x5x17, .f32⟩
  | 88 => ⟨S20000x5x17x1, .f32⟩
  | 89 => ⟨S20000x5x17x17, .f32⟩
  | 90 => ⟨S20000x5x17x17, .f32⟩
  | 91 => ⟨S20000x5x17x10, .f32⟩
  | 92 => ⟨S20000x17x5x10, .f32⟩
  | 93 => ⟨S20000x17x50, .f32⟩
  | 94 => ⟨S_, .f32⟩
  | 95 => ⟨S20000x50, .f32⟩
  | 96 => ⟨S_, .f32⟩
  | 97 => ⟨S20000x50, .f32⟩
  | 98 => ⟨S20000x50, .f32⟩
  | 99 => ⟨S_, .f32⟩
  | 100 => ⟨S20000x50, .f32⟩
  | 101 => ⟨S20000x50, .f32⟩
  | 102 => ⟨S20000x17x5x10, .f32⟩
  | 103 => ⟨S20000x5x17x10, .f32⟩
  | 104 => ⟨S20000x5x17x17, .f32⟩
  | 105 => ⟨S_, .f32⟩
  | 106 => ⟨S20000x5x17x17, .f32⟩
  | 107 => ⟨S20000x5x17x17, .f32⟩
  | 108 => ⟨S_, .f32⟩
  | 109 => ⟨S20000x5x17, .f32⟩
  | 110 => ⟨S_, .f32⟩
  | 111 => ⟨S20000x5x17, .f32⟩
  | 112 => ⟨S20000x5x17, .f32⟩
  | 113 => ⟨S20000x5x17x1, .f32⟩
  | 114 => ⟨S20000x5x17x17, .f32⟩
  | 115 => ⟨S20000x5x17x17, .f32⟩
  | 116 => ⟨S20000x5x17x17, .f32⟩
  | 117 => ⟨S_, .f32⟩
  | 118 => ⟨S20000x5x17, .f32⟩
  | 119 => ⟨S20000x5x17x1, .f32⟩
  | 120 => ⟨S20000x5x17x17, .f32⟩
  | 121 => ⟨S20000x5x17x17, .f32⟩
  | 122 => ⟨S20000x5x17x10, .f32⟩
  | 123 => ⟨S20000x17x5x10, .f32⟩
  | 124 => ⟨S20000x17x50, .f32⟩
  | 125 => ⟨S_, .f32⟩
  | 126 => ⟨S20000x50, .f32⟩
  | 127 => ⟨S_, .f32⟩
  | _ => ⟨S20000x256, .f32⟩

abbrev hbmTy0_1 (i : Nat) : BufTy := match i % 128 with
  | 0 => ⟨S20000x50, .f32⟩
  | 1 => ⟨S20000x50, .f32⟩
  | 2 => ⟨S_, .f32⟩
  | 3 => ⟨S20000x50, .f32⟩
  | 4 => ⟨S20000x50, .f32⟩
  | 5 => ⟨S20000x50, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_call3_cst : Ref sig .tc := ⟨.hbm, 63, rfl⟩
abbrev main_call3_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  shapeCasts_S320000x256_S20000x16x256 : S320000x256.ShapeCasts S20000x16x256
  bcast_S_S20000x16x256 : S_.BroadcastsInDim S20000x16x256 (![] : Fin 0 → Fin S20000x16x256.rank)
  bcast_S50_S1x1x50_2 : S50.BroadcastsInDim S1x1x50 (![2] : Fin 1 → Fin S1x1x50.rank)
  bcast_S1x1x50_S20000x16x50_0_1_2 : S1x1x50.BroadcastsInDim S20000x16x50 (![0, 1, 2] : Fin 3 → Fin S20000x16x50.rank)
  reducesTo_S20000x16x256_S20000x256_d1 : S20000x16x256.ReducesTo [1] S20000x256
  h_S_ : 0 < S_.numel
  bcast_S20000x256_S20000x1x256_0_2 : S20000x256.BroadcastsInDim S20000x1x256 (![0, 2] : Fin 2 → Fin S20000x1x256.rank)
  bcast_S_S20000x1x256 : S_.BroadcastsInDim S20000x1x256 (![] : Fin 0 → Fin S20000x1x256.rank)
  bcast_S1x1x50_S20000x1x50_0_1_2 : S1x1x50.BroadcastsInDim S20000x1x50 (![0, 1, 2] : Fin 3 → Fin S20000x1x50.rank)
  concatenates_S20000x16x50_S20000x1x50_S20000x17x50_d1 : Shape.Concatenates [S20000x16x50, S20000x1x50] S20000x17x50 1
  shapeCasts_S20000x17x50_S20000x17x5x10 : S20000x17x50.ShapeCasts S20000x17x5x10
  transposes_S20000x17x5x10_S20000x5x17x10_0_2_1_3 : S20000x17x5x10.Transposes [0, 2, 1, 3] S20000x5x17x10
  bcast_S_S20000x5x17x17 : S_.BroadcastsInDim S20000x5x17x17 (![] : Fin 0 → Fin S20000x5x17x17.rank)
  reducesTo_S20000x5x17x17_S20000x5x17_d3 : S20000x5x17x17.ReducesTo [3] S20000x5x17
  bcast_S_S20000x5x17 : S_.BroadcastsInDim S20000x5x17 (![] : Fin 0 → Fin S20000x5x17.rank)
  bcast_S20000x5x17_S20000x5x17x1_0_1_2 : S20000x5x17.BroadcastsInDim S20000x5x17x1 (![0, 1, 2] : Fin 3 → Fin S20000x5x17x1.rank)
  bcast_S20000x5x17x1_S20000x5x17x17_0_1_2_3 : S20000x5x17x1.BroadcastsInDim S20000x5x17x17 (![0, 1, 2, 3] : Fin 4 → Fin S20000x5x17x17.rank)
  transposes_S20000x5x17x10_S20000x17x5x10_0_2_1_3 : S20000x5x17x10.Transposes [0, 2, 1, 3] S20000x17x5x10
  shapeCasts_S20000x17x5x10_S20000x17x50 : S20000x17x5x10.ShapeCasts S20000x17x50
  reducesTo_S20000x17x50_S20000x50_d1 : S20000x17x50.ReducesTo [1] S20000x50
  bcast_S_S20000x50 : S_.BroadcastsInDim S20000x50 (![] : Fin 0 → Fin S20000x50.rank)
  gather_S20000x256_S320000x1_S320000x256_1_0_n_n_0_1_1256_wf : GatherDims.WF S20000x256 S320000x1 S320000x256 [1] [0] [] [0] [] 1 ![1, 256]
  dot_S20000x16x256_S256x50_S20000x16x50_2_0_01_1_n_n_wf : DotDims.WF S20000x16x256 S256x50 S20000x16x50 [2] [0] [0, 1] [1] [] []
  dot_S20000x1x256_S256x50_S20000x1x50_2_0_01_1_n_n_wf : DotDims.WF S20000x1x256 S256x50 S20000x1x50 [2] [0] [0, 1] [1] [] []
  dot_S20000x5x17x10_S20000x5x17x10_S20000x5x17x17_3_3_2_2_01_01_wf : DotDims.WF S20000x5x17x10 S20000x5x17x10 S20000x5x17x17 [3] [3] [2] [2] [0, 1] [0, 1]
  dot_S20000x5x17x17_S20000x5x17x10_S20000x5x17x10_3_2_2_3_01_01_wf : DotDims.WF S20000x5x17x17 S20000x5x17x10 S20000x5x17x10 [3] [2] [2] [3] [0, 1] [0, 1]

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S20000x16x256_S256x50_S20000x16x50_2_0_01_1_n_n : DotDims S20000x16x256 S256x50 S20000x16x50 where
  lhsContracting := [2]
  rhsContracting := [0]
  lhsNonContracting := [0, 1]
  rhsNonContracting := [1]
  lhsBatch := []
  rhsBatch := []
  wf := dot_S20000x16x256_S256x50_S20000x16x50_2_0_01_1_n_n_wf
def dot_S20000x1x256_S256x50_S20000x1x50_2_0_01_1_n_n : DotDims S20000x1x256 S256x50 S20000x1x50 where
  lhsContracting := [2]
  rhsContracting := [0]
  lhsNonContracting := [0, 1]
  rhsNonContracting := [1]
  lhsBatch := []
  rhsBatch := []
  wf := dot_S20000x1x256_S256x50_S20000x1x50_2_0_01_1_n_n_wf
def dot_S20000x5x17x10_S20000x5x17x10_S20000x5x17x17_3_3_2_2_01_01 : DotDims S20000x5x17x10 S20000x5x17x10 S20000x5x17x17 where
  lhsContracting := [3]
  rhsContracting := [3]
  lhsNonContracting := [2]
  rhsNonContracting := [2]
  lhsBatch := [0, 1]
  rhsBatch := [0, 1]
  wf := dot_S20000x5x17x10_S20000x5x17x10_S20000x5x17x17_3_3_2_2_01_01_wf
def dot_S20000x5x17x17_S20000x5x17x10_S20000x5x17x10_3_2_2_3_01_01 : DotDims S20000x5x17x17 S20000x5x17x10 S20000x5x17x10 where
  lhsContracting := [3]
  rhsContracting := [2]
  lhsNonContracting := [2]
  rhsNonContracting := [3]
  lhsBatch := [0, 1]
  rhsBatch := [0, 1]
  wf := dot_S20000x5x17x17_S20000x5x17x10_S20000x5x17x10_3_2_2_3_01_01_wf

class Facts : Prop extends Facts₀ where

variable [Facts]
-- ==== Proof.KerBody.lean ====
/- The kernel body's value as a composition of named stages, at any float instance. A branch's 17 prediction rows
   (rows) are the 16 messages through relu and the affine map (fcRows) and the mean message through the same (meanV,
   fcMean). For one head, the rows are copied with the lanes outside the head zeroed (keep); the copy's rows are scored
   against each other (scores); each row of scores goes through a softmax (rowMaxV, expV, rowSumV, softmax, a per-row
   value being spread along its row by colOf); the copy's rows are combined with the weights (combine). The five heads'
   results are added up from zero (heads), the 17 rows averaged (poolRows), and the two branches blended half and half
   (blend). The generated payload of the body's one store is this composition, by unfolding. -/
import proofs.«173407_j73976516706888_2_alg».proof.Proof.Gen.KernelIdeal.Frame

set_option synthInstance.maxSize 4096

noncomputable section

namespace Cert.KernelIdeal.Body

open Cert.KernelIdeal Cert.KernelIdeal.Gen Idealize.ShloMosaic Idealize.SL.Sem

variable {F : FTy → Type} [FloatOps F]

/-- relu of the 16 messages. -/
def relu16 (v6 : FVec F S160x16x256 .bf16) : FVec F S160x16x256 .bf16 :=
  maximumf v6 (broadcast S160x16x256 (Scalar.ofBits .bf16 0x0000#16))

/-- The affine map of 16 rows per node, as one product over the 2560 rows of the block. -/
def fcRows (v12 : FVec F S160x16x256 .bf16) (v9 : FVec F S256x50 .bf16) (v10 : Vec F S50 .f32) : FVec F S160x16x50 .f32 :=
  shapeCast S160x16x50
    (addf (matmul dot_S2560x256_S256x50_S2560x50_1_0_0_1_n_n none (shapeCast S2560x256 v12 shapeCasts_S160x16x256_S2560x256) v9
        (constant S2560x50 .f32 0x00000000#32))
      (broadcastTo S2560x50 (shapeCast S1x50 v10 shapeCasts_S50_S1x50) broadcasts_S1x50_S2560x50))
    shapeCasts_S2560x50_S160x16x50

/-- The mean message of each node. -/
def meanV (v6 : FVec F S160x16x256 .bf16) : FVec F S160x1x256 .f32 :=
  divf (shapeCast S160x1x256
      (multiReduction .add [1] S160x256 (extf .f32 v6 bitsLt_bf16_f32) 0x00000000#32 reduces_S160x16x256_S160x256 (.inl rfl) rfl)
      shapeCasts_S160x256_S160x1x256)
    (broadcast S160x1x256 (Scalar.ofBits .f32 0x41800000#32))

/-- relu and the affine map of one row per node. -/
def fcMean (v23 : FVec F S160x1x256 .f32) (v9 : FVec F S256x50 .bf16) (v10 : Vec F S50 .f32) : FVec F S160x1x50 .f32 :=
  shapeCast S160x1x50
    (addf (matmul dot_S160x256_S256x50_S160x50_1_0_0_1_n_n none
        (shapeCast S160x256 (truncf .bf16 (maximumf v23 (broadcast S160x1x256 (Scalar.ofBits .f32 0x00000000#32))) bitsLt_bf16_f32)
          shapeCasts_S160x1x256_S160x256) v9 (constant S160x50 .f32 0x00000000#32))
      (broadcastTo S160x50 (shapeCast S1x50 v10 shapeCasts_S50_S1x50) broadcasts_S1x50_S160x50))
    shapeCasts_S160x50_S160x1x50

/-- The 17 prediction rows of each of the block's 160 nodes. -/
def rows (v6 : FVec F S160x16x256 .bf16) (v9 : FVec F S256x50 .bf16) (v10 : Vec F S50 .f32) : FVec F S160x17x50 .f32 :=
  concatenate S160x17x50 1 [⟨S160x16x50, fcRows (relu16 v6) v9 v10⟩, ⟨S160x1x50, fcMean (meanV v6) v9 v10⟩]
    concatenates_S160x16x50_S160x1x50_S160x17x50_d1

/-- The one-bit mask of head h's lanes. -/
def headMask (h : BitVec 32) : IVec S160x17x50 1 :=
  andi (cmpi .sge (iota .tc S160x17x50 32 [2] iota_S160x17x50_d2_w32) (broadcast S160x17x50 (Scalar.muli h 10#32)))
    (cmpi .slt (iota .tc S160x17x50 32 [2] iota_S160x17x50_d2_w32) (broadcast S160x17x50 (Scalar.addi (Scalar.muli h 10#32) 10#32)))

/-- The rows with the lanes outside head h set to zero. -/
def keep (h : BitVec 32) (v33 : FVec F S160x17x50 .f32) : FVec F S160x17x50 .f32 :=
  select (headMask h) v33 (broadcast S160x17x50 (Scalar.ofBits .f32 0x00000000#32))

/-- The scaled scores of the rows against each other. -/
def scores (v67 : FVec F S160x17x50 .f32) : FVec F S160x17x17 .f32 :=
  mulf (multiReduction .add [3] S160x17x17
      (mulf (broadcastTo S160x17x17x50 (shapeCast S160x17x1x50 v67 shapeCasts_S160x17x50_S160x17x1x50) broadcasts_S160x17x1x50_S160x17x17x50)
        (broadcastTo S160x17x17x50 (shapeCast S160x1x17x50 v67 shapeCasts_S160x17x50_S160x1x17x50) broadcasts_S160x1x17x50_S160x17x17x50))
      0x00000000#32 reduces_S160x17x17x50_S160x17x17 (.inl rfl) rfl)
    (broadcast S160x17x17 (Scalar.ofBits .f32 0x3EA1E89B#32))

/-- A per-row value spread along its row. -/
def colOf (v : FVec F S160x17 .f32) : FVec F S160x17x17 .f32 :=
  broadcastTo S160x17x17 (shapeCast S160x17x1 v shapeCasts_S160x17_S160x17x1) broadcasts_S160x17x1_S160x17x17

def rowMaxV (v75 : FVec F S160x17x17 .f32) : FVec F S160x17 .f32 :=
  maximumf (broadcast S160x17 (Scalar.ofBits .f32 0xFF800000#32))
    (multiReduction .maximumf [2] S160x17 v75 0xFF800000#32 reduces_S160x17x17_S160x17 (.inl rfl) rfl)

def expV (v75 : FVec F S160x17x17 .f32) : FVec F S160x17x17 .f32 := exp (subf v75 (colOf (rowMaxV v75)))

def rowSumV (v82 : FVec F S160x17x17 .f32) : FVec F S160x17 .f32 :=
  multiReduction .add [2] S160x17 v82 0x00000000#32 reduces_S160x17x17_S160x17 (.inl rfl) rfl

/-- The softmax of each row of scores. -/
def softmax (v75 : FVec F S160x17x17 .f32) : FVec F S160x17x17 .f32 := divf (expV v75) (colOf (rowSumV (expV v75)))

/-- The rows combined with the weights. -/
def combine (v86 : FVec F S160x17x17 .f32) (v67 : FVec F S160x17x50 .f32) : FVec F S160x17x50 .f32 :=
  multiReduction .add [2] S160x17x50
    (mulf (broadcastTo S160x17x17x50 (shapeCast S160x17x17x1 v86 shapeCasts_S160x17x17_S160x17x17x1) broadcasts_S160x17x17x1_S160x17x17x50)
      (broadcastTo S160x17x17x50 (shapeCast S160x1x17x50 v67 shapeCasts_S160x17x50_S160x1x17x50) broadcasts_S160x1x17x50_S160x17x17x50))
    0x00000000#32 reduces_S160x17x17x50_S160x17x50 (.inl rfl) rfl

/-- One head's attended rows, zero outside the head's lanes. -/
def headOut (h : BitVec 32) (v33 : FVec F S160x17x50 .f32) : FVec F S160x17x50 .f32 :=
  combine (softmax (scores (keep h v33))) (keep h v33)

/-- The five heads' attended rows added up from zero. -/
def heads (v33 : FVec F S160x17x50 .f32) : FVec F S160x17x50 .f32 :=
  addf (addf (addf (addf (addf (broadcast S160x17x50 (Scalar.ofBits .f32 0x00000000#32)) (headOut 0#32 v33)) (headOut 1#32 v33))
    (headOut 2#32 v33)) (headOut 3#32 v33)) (headOut 4#32 v33)

/-- The average over the 17 rows. -/
def poolRows (v233 : FVec F S160x17x50 .f32) : FVec F S160x50 .f32 :=
  divf (multiReduction .add [1] S160x50 v233 0x00000000#32 reduces_S160x17x50_S160x50 (.inl rfl) rfl)
    (broadcast S160x50 (Scalar.ofBits .f32 0x41880000#32))

/-- Half of each branch. -/
def blend (v236 v416 : FVec F S160x50 .f32) : FVec F S160x50 .f32 :=
  addf (mulf (broadcast S160x50 (Scalar.ofBits .f32 0x3F000000#32)) v236) (mulf (broadcast S160x50 (Scalar.ofBits .f32 0x3F000000#32)) v416)

/-- The two branches' messages: the gathered table's first or second 256 columns, plus the edge rows. -/
def msgA (x0 : Vec F S160x16x512 .bf16) (x1 : Vec F S160x16x256 .bf16) : FVec F S160x16x256 .bf16 :=
  addf (extractStridedSlice S160x16x256 ![0, 0, 0] (shapeCast S160x16x512 x0 shapeCasts_S160x16x512_S160x16x512) slices_S160x16x512_o0_0_0_S160x16x256)
    (shapeCast S160x16x256 x1 shapeCasts_S160x16x256_S160x16x256)
def msgB (x0 : Vec F S160x16x512 .bf16) (x1 : Vec F S160x16x256 .bf16) : FVec F S160x16x256 .bf16 :=
  addf (extractStridedSlice S160x16x256 ![0, 0, 256] (shapeCast S160x16x512 x0 shapeCasts_S160x16x512_S160x16x512) slices_S160x16x512_o0_0_256_S160x16x256)
    (shapeCast S160x16x256 x1 shapeCasts_S160x16x256_S160x16x256)

/-- The block the body stores. -/
def body (x0 : Vec F S160x16x512 .bf16) (x1 : Vec F S160x16x256 .bf16) (x2 : Vec F S256x50 .f32) (x3 : Vec F S50 .f32) : FVec F S160x50 .f32 :=
  blend (poolRows (heads (rows (msgA x0 x1) (truncf .bf16 x2 bitsLt_bf16_f32) x3)))
    (poolRows (heads (rows (msgB x0 x1) (truncf .bf16 x2 bitsLt_bf16_f32) x3)))

/-- The generated payload of the body's one store is that composition. -/
theorem out_eq (x0 : Vec F S160x16x512 .bf16) (x1 : Vec F S160x16x256 .bf16) (x2 : Vec F S256x50 .f32) (x3 : Vec F S50 .f32) :
    out0_4 x0 x1 x2 x3 = View.canon [⟨r0_4, body (View.ld x0 r0_0) (View.ld x1 r0_1) (View.ld x2 r0_2) (View.ld x3 r0_3)⟩] := rfl

end Cert.KernelIdeal.Body

end
-- ==== Proof.Idx.lean ====
/- Two indices of a literal shape are equal when their coordinates are. -/
import Idealize.ShloMosaic.Lib.ValueIdx

namespace Cert.Idx

open Idealize.ShloMosaic Idealize.ShloMosaic.ValueIdx

theorem ext1 {n0 : Nat} (i j : (⟨1, ![n0]⟩ : Shape).Idx) (h0 : (i 0).val = (j 0).val) : i = j :=
  funext fun a => Fin.ext (by match a with | ⟨0, _⟩ => exact h0)

theorem ext2 {n0 n1 : Nat} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)

theorem ext3 {n0 n1 n2 : Nat} (i j : (⟨3, ![n0, n1, n2]⟩ : Shape).Idx) (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

theorem ext4 {n0 n1 n2 n3 : Nat} (i j : (⟨4, ![n0, n1, n2, n3]⟩ : Shape).Idx) (h0 : (i 0).val = (j 0).val)
    (h1 : (i 1).val = (j 1).val) (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)

end Cert.Idx
-- ==== Proof.Layout.lean ====
/- Re-laid arrays of the block's shapes read at an entry: a unit axis put in or taken out does not move an entry; a
   unit axis spread to 17 or 50 repeats the entry; the 160 x 16 rows of a block laid out as 2560 rows number row (p, d)
   as 16 p + d; a run of 256 columns cut out of 512 starts at its offset. -/
import Idealize.ShloMosaic.Lib.Pipeline.Value
import Idealize.ShloMosaic.Lib.ValueIdx
import proofs.«173407_j73976516706888_2_alg».proof.Proof.Idx

namespace Cert.Layout

open Idealize.ShloMosaic Idealize.ShloMosaic.ValueIdx Cert.Idx

variable {α : Type}

theorem cast_s1k (v : (⟨3, ![160, 17, 50]⟩ : Shape).Idx → α) (h : (⟨3, ![160, 17, 50]⟩ : Shape).ShapeCasts ⟨4, ![160, 17, 1, 50]⟩)
    (p : Fin 160) (s : Fin 17) (u : Fin 1) (k : Fin 50) :
    shapeCast ⟨4, ![160, 17, 1, 50]⟩ v h (ix4 p s u k) = v (ix3 p s k) :=
  shapeCast_apply v h _ _ (by
    rw [Shape.rowMajor_val_three, Shape.rowMajor_val_four]
    show (p.val * 17 + s.val) * 50 + k.val = ((p.val * 17 + s.val) * 1 + u.val) * 50 + k.val
    have := u.isLt; omega)

theorem cast_1tk (v : (⟨3, ![160, 17, 50]⟩ : Shape).Idx → α) (h : (⟨3, ![160, 17, 50]⟩ : Shape).ShapeCasts ⟨4, ![160, 1, 17, 50]⟩)
    (p : Fin 160) (u : Fin 1) (t : Fin 17) (k : Fin 50) :
    shapeCast ⟨4, ![160, 1, 17, 50]⟩ v h (ix4 p u t k) = v (ix3 p t k) :=
  shapeCast_apply v h _ _ (by
    rw [Shape.rowMajor_val_three, Shape.rowMajor_val_four]
    show (p.val * 17 + t.val) * 50 + k.val = ((p.val * 1 + u.val) * 17 + t.val) * 50 + k.val
    have := u.isLt; omega)

theorem cast_st1 (v : (⟨3, ![160, 17, 17]⟩ : Shape).Idx → α) (h : (⟨3, ![160, 17, 17]⟩ : Shape).ShapeCasts ⟨4, ![160, 17, 17, 1]⟩)
    (p : Fin 160) (s t : Fin 17) (u : Fin 1) :
    shapeCast ⟨4, ![160, 17, 17, 1]⟩ v h (ix4 p s t u) = v (ix3 p s t) :=
  shapeCast_apply v h _ _ (by
    rw [Shape.rowMajor_val_three, Shape.rowMajor_val_four]
    show (p.val * 17 + s.val) * 17 + t.val = ((p.val * 17 + s.val) * 17 + t.val) * 1 + u.val
    have := u.isLt; omega)

theorem cast_s1 (v : (⟨2, ![160, 17]⟩ : Shape).Idx → α) (h : (⟨2, ![160, 17]⟩ : Shape).ShapeCasts ⟨3, ![160, 17, 1]⟩)
    (p : Fin 160) (s : Fin 17) (u : Fin 1) :
    shapeCast ⟨3, ![160, 17, 1]⟩ v h (ix3 p s u) = v (ix2 p s) :=
  shapeCast_apply v h _ _ (by
    rw [Shape.rowMajor_val_two, Shape.rowMajor_val_three]
    show p.val * 17 + s.val = (p.val * 17 + s.val) * 1 + u.val
    have := u.isLt; omega)

theorem bc_s1k (x : (⟨4, ![160, 17, 1, 50]⟩ : Shape).Idx → α) (h : (⟨4, ![160, 17, 1, 50]⟩ : Shape).Broadcasts ⟨4, ![160, 17, 17, 50]⟩)
    (p : Fin 160) (s t : Fin 17) (k : Fin 50) :
    broadcastTo ⟨4, ![160, 17, 17, 50]⟩ x h (ix4 p s t k) = x (ix4 p s ⟨0, Nat.one_pos⟩ k) :=
  broadcastTo_apply x h _ _ (fun a => by
    match a with
    | ⟨0, _⟩ => show p.val = if (160 : Nat) = 1 then 0 else p.val; rw [if_neg (by decide)]
    | ⟨1, _⟩ => show s.val = if (17 : Nat) = 1 then 0 else s.val; rw [if_neg (by decide)]
    | ⟨2, _⟩ => show (0 : Nat) = if (1 : Nat) = 1 then 0 else t.val; rw [if_pos rfl]
    | ⟨3, _⟩ => show k.val = if (50 : Nat) = 1 then 0 else k.val; rw [if_neg (by decide)])

theorem bc_1tk (x : (⟨4, ![160, 1, 17, 50]⟩ : Shape).Idx → α) (h : (⟨4, ![160, 1, 17, 50]⟩ : Shape).Broadcasts ⟨4, ![160, 17, 17, 50]⟩)
    (p : Fin 160) (s t : Fin 17) (k : Fin 50) :
    broadcastTo ⟨4, ![160, 17, 17, 50]⟩ x h (ix4 p s t k) = x (ix4 p ⟨0, Nat.one_pos⟩ t k) :=
  broadcastTo_apply x h _ _ (fun a => by
    match a with
    | ⟨0, _⟩ => show p.val = if (160 : Nat) = 1 then 0 else p.val; rw [if_neg (by decide)]
    | ⟨1, _⟩ => show (0 : Nat) = if (1 : Nat) = 1 then 0 else s.val; rw [if_pos rfl]
    | ⟨2, _⟩ => show t.val = if (17 : Nat) = 1 then 0 else t.val; rw [if_neg (by decide)]
    | ⟨3, _⟩ => show k.val = if (50 : Nat) = 1 then 0 else k.val; rw [if_neg (by decide)])

theorem bc_st1 (x : (⟨4, ![160, 17, 17, 1]⟩ : Shape).Idx → α) (h : (⟨4, ![160, 17, 17, 1]⟩ : Shape).Broadcasts ⟨4, ![160, 17, 17, 50]⟩)
    (p : Fin 160) (s t : Fin 17) (k : Fin 50) :
    broadcastTo ⟨4, ![160, 17, 17, 50]⟩ x h (ix4 p s t k) = x (ix4 p s t ⟨0, Nat.one_pos⟩) :=
  broadcastTo_apply x h _ _ (fun a => by
    match a with
    | ⟨0, _⟩ => show p.val = if (160 : Nat) = 1 then 0 else p.val; rw [if_neg (by decide)]
    | ⟨1, _⟩ => show s.val = if (17 : Nat) = 1 then 0 else s.val; rw [if_neg (by decide)]
    | ⟨2, _⟩ => show t.val = if (17 : Nat) = 1 then 0 else t.val; rw [if_neg (by decide)]
    | ⟨3, _⟩ => show (0 : Nat) = if (1 : Nat) = 1 then 0 else k.val; rw [if_pos rfl])

theorem bc_s1 (x : (⟨3, ![160, 17, 1]⟩ : Shape).Idx → α) (h : (⟨3, ![160, 17, 1]⟩ : Shape).Broadcasts ⟨3, ![160, 17, 17]⟩)
    (p : Fin 160) (s t : Fin 17) :
    broadcastTo ⟨3, ![160, 17, 17]⟩ x h (ix3 p s t) = x (ix3 p s ⟨0, Nat.one_pos⟩) :=
  broadcastTo_apply x h _ _ (fun a => by
    match a with
    | ⟨0, _⟩ => show p.val = if (160 : Nat) = 1 then 0 else p.val; rw [if_neg (by decide)]
    | ⟨1, _⟩ => show s.val = if (17 : Nat) = 1 then 0 else s.val; rw [if_neg (by decide)]
    | ⟨2, _⟩ => show (0 : Nat) = if (1 : Nat) = 1 then 0 else t.val; rw [if_pos rfl])

/-! The rows of the block as 2560 rows, and back. -/

/-- Row d of node p among the block's 2560 rows. -/
def flatRow (p : Fin 160) (d : Fin 16) : Fin 2560 := ⟨p.val * 16 + d.val, by have := p.isLt; have := d.isLt; omega⟩

theorem cast_flat (v : (⟨3, ![160, 16, 256]⟩ : Shape).Idx → α) (h : (⟨3, ![160, 16, 256]⟩ : Shape).ShapeCasts ⟨2, ![2560, 256]⟩)
    (p : Fin 160) (d : Fin 16) (e : Fin 256) :
    shapeCast ⟨2, ![2560, 256]⟩ v h (ix2 (flatRow p d) e) = v (ix3 p d e) :=
  shapeCast_apply v h _ _ (by
    rw [Shape.rowMajor_val_two, Shape.rowMajor_val_three]
    rfl)

theorem cast_unflat (v : (⟨2, ![2560, 50]⟩ : Shape).Idx → α) (h : (⟨2, ![2560, 50]⟩ : Shape).ShapeCasts ⟨3, ![160, 16, 50]⟩)
    (p : Fin 160) (d : Fin 16) (t : Fin 50) :
    shapeCast ⟨3, ![160, 16, 50]⟩ v h (ix3 p d t) = v (ix2 (flatRow p d) t) :=
  shapeCast_apply v h _ _ (by
    rw [Shape.rowMajor_val_two, Shape.rowMajor_val_three]
    rfl)

theorem cast_row (v : (⟨1, ![50]⟩ : Shape).Idx → α) (h : (⟨1, ![50]⟩ : Shape).ShapeCasts ⟨2, ![1, 50]⟩) (u : Fin 1) (t : Fin 50) :
    shapeCast ⟨2, ![1, 50]⟩ v h (ix2 u t) = v (ix1 t) :=
  shapeCast_apply v h _ _ (by
    rw [Shape.rowMajor_val_one, Shape.rowMajor_val_two]
    show t.val = u.val * 50 + t.val
    have := u.isLt; omega)

theorem bc_row2560 (x : (⟨2, ![1, 50]⟩ : Shape).Idx → α) (h : (⟨2, ![1, 50]⟩ : Shape).Broadcasts ⟨2, ![2560, 50]⟩) (r : Fin 2560) (t : Fin 50) :
    broadcastTo ⟨2, ![2560, 50]⟩ x h (ix2 r t) = x (ix2 ⟨0, Nat.one_pos⟩ t) :=
  broadcastTo_apply x h _ _ (fun a => by
    match a with
    | ⟨0, _⟩ => show (0 : Nat) = if (1 : Nat) = 1 then 0 else r.val; rw [if_pos rfl]
    | ⟨1, _⟩ => show t.val = if (50 : Nat) = 1 then 0 else t.val; rw [if_neg (by decide)])

theorem bc_row160 (x : (⟨2, ![1, 50]⟩ : Shape).Idx → α) (h : (⟨2, ![1, 50]⟩ : Shape).Broadcasts ⟨2, ![160, 50]⟩) (r : Fin 160) (t : Fin 50) :
    broadcastTo ⟨2, ![160, 50]⟩ x h (ix2 r t) = x (ix2 ⟨0, Nat.one_pos⟩ t) :=
  broadcastTo_apply x h _ _ (fun a => by
    match a with
    | ⟨0, _⟩ => show (0 : Nat) = if (1 : Nat) = 1 then 0 else r.val; rw [if_pos rfl]
    | ⟨1, _⟩ => show t.val = if (50 : Nat) = 1 then 0 else t.val; rw [if_neg (by decide)])

theorem cast_p1e (v : (⟨2, ![160, 256]⟩ : Shape).Idx → α) (h : (⟨2, ![160, 256]⟩ : Shape).ShapeCasts ⟨3, ![160, 1, 256]⟩)
    (p : Fin 160) (u : Fin 1) (e : Fin 256) :
    shapeCast ⟨3, ![160, 1, 256]⟩ v h (ix3 p u e) = v (ix2 p e) :=
  shapeCast_apply v h _ _ (by
    rw [Shape.rowMajor_val_two, Shape.rowMajor_val_three]
    show p.val * 256 + e.val = (p.val * 1 + u.val) * 256 + e.val
    have := u.isLt; omega)

theorem cast_pe (v : (⟨3, ![160, 1, 256]⟩ : Shape).Idx → α) (h : (⟨3, ![160, 1, 256]⟩ : Shape).ShapeCasts ⟨2, ![160, 256]⟩)
    (p : Fin 160) (e : Fin 256) :
    shapeCast ⟨2, ![160, 256]⟩ v h (ix2 p e) = v (ix3 p ⟨0, Nat.one_pos⟩ e) :=
  shapeCast_apply v h _ _ (by
    rw [Shape.rowMajor_val_two, Shape.rowMajor_val_three]
    show (p.val * 1 + 0) * 256 + e.val = p.val * 256 + e.val
    omega)

theorem cast_p1t (v : (⟨2, ![160, 50]⟩ : Shape).Idx → α) (h : (⟨2, ![160, 50]⟩ : Shape).ShapeCasts ⟨3, ![160, 1, 50]⟩)
    (p : Fin 160) (u : Fin 1) (t : Fin 50) :
    shapeCast ⟨3, ![160, 1, 50]⟩ v h (ix3 p u t) = v (ix2 p t) :=
  shapeCast_apply v h _ _ (by
    rw [Shape.rowMajor_val_two, Shape.rowMajor_val_three]
    show p.val * 50 + t.val = (p.val * 1 + u.val) * 50 + t.val
    have := u.isLt; omega)

/-- A run of 256 columns of the 512, from column o on. -/
theorem slice_cols (o : Nat) (ho : o + 256 ≤ 512) (x : (⟨3, ![160, 16, 512]⟩ : Shape).Idx → α)
    (h : (⟨3, ![160, 16, 512]⟩ : Shape).Slices ![0, 0, o] ⟨3, ![160, 16, 256]⟩) (p : Fin 160) (d : Fin 16) (e : Fin 256) :
    extractStridedSlice ⟨3, ![160, 16, 256]⟩ ![0, 0, o] x h (ix3 p d e) = x (ix3 p d ⟨o + e.val, by have := e.isLt; omega⟩) :=
  extractStridedSlice_apply _ x h _ _ (fun a => by
    match a with
    | ⟨0, _⟩ => show p.val = 0 + p.val; omega
    | ⟨1, _⟩ => show d.val = 0 + d.val; omega
    | ⟨2, _⟩ => rfl)

end Cert.Layout
-- ==== Proof.Spec.lean ====
/- The value computed for ONE destination node, over the extended reals, on small index types.

   A node has a mailbox of 16 messages of 256 features. A message row goes through relu and an affine map to 50
   lanes; a seventeenth row is the affine map of relu of the mean message. The 50 lanes are 5 heads of 10 lanes:
   within a head, row s attends to row t with the softmax over t of the scaled dot product of the two rows' head lanes,
   and the attended rows are averaged over the 17 rows. Two such pooled predictions are blended half and half.

   Two arrangements of this value meet here. One takes a head's dot product as a sum over the head's ten lanes; the
   other zeroes the lanes outside the head and sums over all fifty (masked_dot). One reads a head's attended row at the
   head's lanes; the other adds up, over the five heads, rows that vanish outside their head (heads_combine). Both
   need only that adding zero and multiplying by zero are exact on the extended reals: no finiteness. -/
import Idealize.ShloMosaic.PureOps.Ideal

noncomputable section

namespace Cert.Spec

open Idealize.ShloMosaic

abbrev c16 : EReal := Ideal.ofBits .f32 0x41800000#32
abbrev c17 : EReal := Ideal.ofBits .f32 0x41880000#32
abbrev chalf : EReal := Ideal.ofBits .f32 0x3F000000#32
abbrev cscale : EReal := Ideal.ofBits .f32 0x3EA1E89B#32
abbrev cninf : EReal := Ideal.ofBits .f32 0xFF800000#32

/-- The head a lane belongs to. -/
def headOf (f : Fin 50) : Fin 5 := ⟨f.val / 10, by have := f.isLt; omega⟩
/-- Lane d of head h. -/
def lane (h : Fin 5) (d : Fin 10) : Fin 50 := ⟨h.val * 10 + d.val, by have := h.isLt; have := d.isLt; omega⟩

theorem headOf_lane (h : Fin 5) (d : Fin 10) : headOf (lane h d) = h :=
  Fin.ext (by show (h.val * 10 + d.val) / 10 = h.val; have := d.isLt; omega)

theorem lane_headOf (f : Fin 50) : lane (headOf f) ⟨f.val % 10, Nat.mod_lt _ (by decide)⟩ = f :=
  Fin.ext (by show f.val / 10 * 10 + f.val % 10 = f.val; omega)

/-- The fifty lanes are five heads of ten. -/
def laneEquiv : Fin 5 × Fin 10 ≃ Fin 50 where
  toFun p := lane p.1 p.2
  invFun f := (headOf f, ⟨f.val % 10, Nat.mod_lt _ (by decide)⟩)
  left_inv p := Prod.ext (headOf_lane p.1 p.2)
    (Fin.ext (by show (p.1.val * 10 + p.2.val) % 10 = p.2.val; have := p.2.isLt; omega))
  right_inv f := lane_headOf f

/-- A sum over the fifty lanes is the sum over heads of the sums over a head's lanes. -/
theorem sum_lanes (g : Fin 50 → EReal) : ∑ f : Fin 50, g f = ∑ h : Fin 5, ∑ d : Fin 10, g (lane h d) := by
  rw [← Equiv.sum_comp laneEquiv g, Fintype.sum_prod_type]
  rfl

/-- The dot product of two rows with the lanes outside head h zeroed, over all fifty lanes, is the dot product over
    the head's ten lanes. -/
theorem masked_dot (h : Fin 5) (a b : Fin 50 → EReal) :
    ∑ f : Fin 50, (if headOf f = h then a f else 0) * (if headOf f = h then b f else 0)
      = ∑ d : Fin 10, a (lane h d) * b (lane h d) := by
  rw [sum_lanes]
  rw [Finset.sum_eq_single h]
  · refine Finset.sum_congr rfl fun d _ => ?_
    rw [headOf_lane, if_pos rfl, if_pos rfl]
  · intro h' _ hne
    refine Finset.sum_eq_zero fun d _ => ?_
    rw [headOf_lane, if_neg hne, zero_mul]
  · intro hn; exact absurd (Finset.mem_univ h) hn

/-- Five terms of which only head(f)'s is not zero, added up from zero in order, leave that term. -/
theorem heads_combine (f : Fin 50) (T : Fin 5 → EReal) (A : EReal) (hT : ∀ h, T h = if headOf f = h then A else 0) :
    ((((0 + T 0) + T 1) + T 2) + T 3) + T 4 = A := by
  simp only [hT]
  generalize headOf f = g
  fin_cases g <;> simp

/-! ## The node's value -/

/-- relu then the affine map, one output lane. -/
def fc (W : Fin 256 → Fin 50 → EReal) (b : Fin 50 → EReal) (x : Fin 256 → EReal) (t : Fin 50) : EReal :=
  (∑ e : Fin 256, max (x e) 0 * W e t) + b t

/-- The mean message. -/
def rowMean (x : Fin 16 → Fin 256 → EReal) (e : Fin 256) : EReal := Ideal.div (∑ d : Fin 16, x d e) c16

/-- The 17 prediction rows: the 16 messages, then the mean message. -/
def pred (W : Fin 256 → Fin 50 → EReal) (b : Fin 50 → EReal) (x : Fin 16 → Fin 256 → EReal) (s : Fin 17) (t : Fin 50) : EReal :=
  if h : s.val < 16 then fc W b (x ⟨s.val, h⟩) t else fc W b (rowMean x) t

/-- Row s against row t within head h, scaled. -/
def score (p : Fin 17 → Fin 50 → EReal) (h : Fin 5) (s t : Fin 17) : EReal :=
  (∑ d : Fin 10, p s (lane h d) * p t (lane h d)) * cscale

def rowMax (r : Fin 17 → EReal) : EReal := max cninf (Finset.univ.fold max cninf r)
def expRow (r : Fin 17 → EReal) (t : Fin 17) : EReal := Ideal.exp (r t - rowMax r)
/-- The softmax of a row of 17 scores. -/
def soft (r : Fin 17 → EReal) (t : Fin 17) : EReal := Ideal.div (expRow r t) (∑ u : Fin 17, expRow r u)

/-- Row s after attention within head h, at lane f. -/
def attend (p : Fin 17 → Fin 50 → EReal) (h : Fin 5) (s : Fin 17) (f : Fin 50) : EReal :=
  ∑ t : Fin 17, soft (score p h s) t * p t f

/-- The attended rows averaged, lane f read in its own head. -/
def pooled (p : Fin 17 → Fin 50 → EReal) (f : Fin 50) : EReal :=
  Ideal.div (∑ s : Fin 17, attend p (headOf f) s f) c17

/-- The node's prediction at lane f from its two mailboxes. -/
def node (W : Fin 256 → Fin 50 → EReal) (b : Fin 50 → EReal) (xm xa : Fin 16 → Fin 256 → EReal) (f : Fin 50) : EReal :=
  chalf * pooled (pred W b xm) f + chalf * pooled (pred W b xa) f

/-- The score of two rows from their masked copies over all fifty lanes. -/
theorem score_masked (p : Fin 17 → Fin 50 → EReal) (h : Fin 5) (s t : Fin 17) :
    (∑ f : Fin 50, (if headOf f = h then p s f else 0) * (if headOf f = h then p t f else 0)) * cscale = score p h s t := by
  rw [masked_dot]; rfl

/-- A head's attended row computed from masked rows: it is the head's attended row on the head's lanes and zero
    elsewhere. -/
theorem attend_masked (p : Fin 17 → Fin 50 → EReal) (h : Fin 5) (s : Fin 17) (f : Fin 50) (w : Fin 17 → EReal)
    (hw : w = soft (score p h s)) :
    ∑ t : Fin 17, w t * (if headOf f = h then p t f else 0) = if headOf f = h then attend p h s f else 0 := by
  subst hw
  by_cases hh : headOf f = h
  · simp only [if_pos hh]; rfl
  · simp only [if_neg hh, mul_zero, Finset.sum_const_zero]

end Cert.Spec

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«173407_j73976516706888_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.KerRead.lean ====
/- The kernel body's stages read entry by entry at the ideal values, for node p of the block: the prediction rows are
   Spec.pred of the node's 16 messages; a head's masked copy, scores, softmax and combination give the head's attended
   row on the head's lanes and zero elsewhere; the five heads add up to the attended row read in each lane's own head;
   pooling and blending give Spec.node of the node's two mailboxes. -/
import proofs.«173407_j73976516706888_2_alg».proof.Proof.KerBody
import proofs.«173407_j73976516706888_2_alg».proof.Proof.Layout
import proofs.«173407_j73976516706888_2_alg».proof.Proof.Spec
import proofs.«173407_j73976516706888_2_alg».proof.Proof.LibMatmulRead
import Idealize.ShloMosaic.PureOps.Ideal.Laws

noncomputable section

namespace Cert.KerRead

open Cert.KernelIdeal Cert.KernelIdeal.Gen Cert.KernelIdeal.Body Idealize.ShloMosaic Idealize.ShloMosaic.ValueIdx Cert.Spec Cert.Idx Cert.Layout

/-- The head mask's bit at lane f: set exactly on head hh's ten lanes. -/
theorem maskbit (hh : Fin 5) (f : Fin 50) :
    IntOp.andi (IntOp.cmpi .sge (BitVec.ofNat 32 f.val) (Scalar.muli (BitVec.ofNat 32 hh.val) 10#32))
      (IntOp.cmpi .slt (BitVec.ofNat 32 f.val) (Scalar.addi (Scalar.muli (BitVec.ofNat 32 hh.val) 10#32) 10#32))
    = if headOf f = hh then 1#1 else 0#1 := by
  revert hh f; decide +kernel

theorem bf16_zero : Ideal.ofBits .bf16 0x0000#16 = 0 := by simp [Ideal.ofBits, Ideal.ieee]

/-- A sum over one axis from the zero word, with the evidence typed as the body carries it. -/
theorem mred_add {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- A maximum over one axis from the word of minus infinity, likewise. -/
theorem mred_max {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max (Ideal.ofBits .f32 0xFF800000#32) (src ∘ h.lift j) :=
  Ideal.multiReduction_maximumf_single src 0xFF800000#32 h hφ hacc j

/-- The masked copy keeps the head's lanes. -/
theorem keep_apply (hh : Fin 5) (x : FVec Ideal S160x17x50 .f32) (p : Fin 160) (s : Fin 17) (f : Fin 50) :
    keep (BitVec.ofNat 32 hh.val) x (ix3 p s f) = if headOf f = hh then x (ix3 p s f) else 0 := by
  have hi : iota .tc S160x17x50 32 [2] iota_S160x17x50_d2_w32 (ix3 p s f) = BitVec.ofNat 32 f.val :=
    iota_single_apply _ _ _ _ _ _
  show Scalar.select (IntOp.andi
      (IntOp.cmpi .sge (iota .tc S160x17x50 32 [2] iota_S160x17x50_d2_w32 (ix3 p s f)) (Scalar.muli (BitVec.ofNat 32 hh.val) 10#32))
      (IntOp.cmpi .slt (iota .tc S160x17x50 32 [2] iota_S160x17x50_d2_w32 (ix3 p s f)) (Scalar.addi (Scalar.muli (BitVec.ofNat 32 hh.val) 10#32) 10#32)))
      (x (ix3 p s f)) (Ideal.ofBits .f32 0x00000000#32) = _
  rw [hi, maskbit, Ideal.ofBits_zero_f32]
  by_cases h : headOf f = hh
  · rw [if_pos h, if_pos h]; exact select_one _ _
  · rw [if_neg h, if_neg h]; exact select_zero _ _

/-- Row s against row t: the sum over all fifty lanes of the products, scaled. -/
theorem scores_apply (xm : FVec Ideal S160x17x50 .f32) (p : Fin 160) (s t : Fin 17) :
    scores xm (ix3 p s t) = (∑ k : Fin 50, xm (ix3 p s k) * xm (ix3 p t k)) * cscale := by
  unfold scores
  rw [mulf_apply, broadcast_apply, mred_add]
  refine congrArg (· * _) (Finset.sum_congr rfl fun (k : Fin 50) _ => ?_)
  rw [show reduces_S160x17x17x50_S160x17x17.lift (ix3 p s t) k = ix4 p s t k from ext4 _ _ rfl rfl rfl rfl,
    mulf_apply, bc_s1k, cast_s1k, bc_1tk, cast_1tk]

theorem colOf_apply (v : FVec Ideal S160x17 .f32) (p : Fin 160) (s t : Fin 17) : colOf v (ix3 p s t) = v (ix2 p s) := by
  unfold colOf
  rw [bc_s1, cast_s1]

theorem rowMaxV_apply (sc : FVec Ideal S160x17x17 .f32) (p : Fin 160) (s : Fin 17) :
    rowMaxV sc (ix2 p s) = rowMax (fun u => sc (ix3 p s u)) := by
  unfold rowMaxV rowMax
  rw [maximumf_apply, broadcast_apply, mred_max]
  have e : (sc ∘ reduces_S160x17x17_S160x17.lift (ix2 p s)) = fun u => sc (ix3 p s u) :=
    funext fun u => congrArg sc (ext3 _ _ rfl rfl rfl)
  rw [e]
  rfl

theorem expV_apply (sc : FVec Ideal S160x17x17 .f32) (p : Fin 160) (s t : Fin 17) :
    expV sc (ix3 p s t) = expRow (fun u => sc (ix3 p s u)) t := by
  unfold expV expRow
  show Ideal.exp (sc (ix3 p s t) - colOf (rowMaxV sc) (ix3 p s t)) = _
  rw [colOf_apply, rowMaxV_apply]

theorem rowSumV_apply (e : FVec Ideal S160x17x17 .f32) (p : Fin 160) (s : Fin 17) :
    rowSumV e (ix2 p s) = ∑ u : Fin 17, e (ix3 p s u) := by
  unfold rowSumV
  rw [mred_add]
  exact Finset.sum_congr rfl fun (u : Fin 17) _ => congrArg e (ext3 _ _ rfl rfl rfl)

theorem softmax_apply (sc : FVec Ideal S160x17x17 .f32) (p : Fin 160) (s t : Fin 17) :
    softmax sc (ix3 p s t) = soft (fun u => sc (ix3 p s u)) t := by
  unfold softmax soft
  rw [divf_apply, colOf_apply, rowSumV_apply, expV_apply]
  simp only [expV_apply]

theorem combine_apply (w : FVec Ideal S160x17x17 .f32) (xm : FVec Ideal S160x17x50 .f32) (p : Fin 160) (s : Fin 17) (f : Fin 50) :
    combine w xm (ix3 p s f) = ∑ t : Fin 17, w (ix3 p s t) * xm (ix3 p t f) := by
  unfold combine
  rw [mred_add]
  refine Finset.sum_congr rfl fun (t : Fin 17) _ => ?_
  rw [show reduces_S160x17x17x50_S160x17x50.lift (ix3 p s f) t = ix4 p s t f from ext4 _ _ rfl rfl rfl rfl,
    mulf_apply, bc_st1, cast_st1, bc_1tk, cast_1tk]

/-- Node p's 17 rows of a block of rows. -/
def rowsOf (x : FVec Ideal S160x17x50 .f32) (p : Fin 160) : Fin 17 → Fin 50 → EReal := fun s f => x (ix3 p s f)

/-- One head's result: the head's attended row on its own lanes, zero elsewhere. -/
theorem headOut_apply (hh : Fin 5) (x : FVec Ideal S160x17x50 .f32) (p : Fin 160) (s : Fin 17) (f : Fin 50) :
    headOut (BitVec.ofNat 32 hh.val) x (ix3 p s f) = if headOf f = hh then attend (rowsOf x p) hh s f else 0 := by
  unfold headOut
  rw [combine_apply]
  simp only [softmax_apply, scores_apply, keep_apply]
  exact attend_masked (rowsOf x p) hh s f _ (congrArg soft (funext fun u => score_masked (rowsOf x p) hh s u))

/-- The five heads added up: each lane read in its own head. -/
theorem heads_apply (x : FVec Ideal S160x17x50 .f32) (p : Fin 160) (s : Fin 17) (f : Fin 50) :
    heads x (ix3 p s f) = attend (rowsOf x p) (headOf f) s f := by
  unfold heads
  rw [addf_apply, addf_apply, addf_apply, addf_apply, addf_apply, broadcast_apply]
  show ((((Ideal.ofBits .f32 0x00000000#32 + _) + _) + _) + _) + _ = _
  rw [Ideal.ofBits_zero_f32]
  exact heads_combine f (fun h => headOut (BitVec.ofNat 32 h.val) x (ix3 p s f)) _ (fun h => (headOut_apply h x p s f).trans (by
    by_cases e : headOf f = h
    · rw [if_pos e, if_pos e, e]
    · rw [if_neg e, if_neg e]))

theorem poolRows_apply (a : FVec Ideal S160x17x50 .f32) (p : Fin 160) (f : Fin 50) :
    poolRows a (ix2 p f) = Ideal.div (∑ s : Fin 17, a (ix3 p s f)) c17 := by
  unfold poolRows
  rw [divf_apply, broadcast_apply, mred_add]
  refine congrArg (Ideal.div · _) (Finset.sum_congr rfl fun (s : Fin 17) _ => congrArg a (ext3 _ _ rfl rfl rfl))

/-- The pooled attention of a block of rows, at node p. -/
theorem pooled_apply (x : FVec Ideal S160x17x50 .f32) (p : Fin 160) (f : Fin 50) :
    poolRows (heads x) (ix2 p f) = pooled (rowsOf x p) f := by
  rw [poolRows_apply]
  simp only [heads_apply]
  rfl

/-! ## The prediction rows -/

theorem relu16_apply (v : FVec Ideal S160x16x256 .bf16) (p : Fin 160) (d : Fin 16) (e : Fin 256) :
    relu16 v (ix3 p d e) = max (v (ix3 p d e)) 0 := by
  show max _ (Ideal.ofBits .bf16 0x0000#16) = _
  rw [bf16_zero]

theorem fcRows_apply (v : FVec Ideal S160x16x256 .bf16) (W : FVec Ideal S256x50 .bf16) (b : Vec Ideal S50 .f32)
    (p : Fin 160) (d : Fin 16) (t : Fin 50) :
    fcRows v W b (ix3 p d t) = (∑ e : Fin 256, v (ix3 p d e) * W (ix2 e t)) + b (ix1 t) := by
  unfold fcRows
  rw [cast_unflat, addf_apply, bc_row2560, cast_row]
  refine congrArg (· + _) ?_
  refine (Cert.GCN.matmul_plain_zero_apply none (shapeCast S2560x256 v shapeCasts_S160x16x256_S2560x256) W (flatRow p d) t).trans ?_
  exact Finset.sum_congr rfl fun e _ => by rw [cast_flat]

theorem meanV_apply (v : FVec Ideal S160x16x256 .bf16) (p : Fin 160) (u : Fin 1) (e : Fin 256) :
    meanV v (ix3 p u e) = rowMean (fun d e => v (ix3 p d e)) e := by
  unfold meanV rowMean
  rw [divf_apply, broadcast_apply, cast_p1e, mred_add]
  refine congrArg (Ideal.div · _) (Finset.sum_congr rfl fun (d : Fin 16) _ => ?_)
  rw [extf_apply]
  exact congrArg v (ext3 _ _ rfl rfl rfl)

theorem fcMean_apply (m : FVec Ideal S160x1x256 .f32) (W : FVec Ideal S256x50 .bf16) (b : Vec Ideal S50 .f32)
    (p : Fin 160) (u : Fin 1) (t : Fin 50) :
    fcMean m W b (ix3 p u t) = (∑ e : Fin 256, max (m (ix3 p ⟨0, Nat.one_pos⟩ e)) 0 * W (ix2 e t)) + b (ix1 t) := by
  unfold fcMean
  rw [cast_p1t, addf_apply, bc_row160, cast_row]
  refine congrArg (· + _) ?_
  refine (Cert.GCN.matmul_plain_zero_apply none _ W p t).trans ?_
  refine Finset.sum_congr rfl fun e _ => ?_
  rw [cast_pe, truncf_apply, maximumf_apply, broadcast_apply]
  show max _ (Ideal.ofBits .f32 0x00000000#32) * _ = _
  rw [Ideal.ofBits_zero_f32]

/-- The 17 rows of node p: Spec.pred of its 16 messages. -/
theorem rows_apply (v : FVec Ideal S160x16x256 .bf16) (W : FVec Ideal S256x50 .bf16) (b : Vec Ideal S50 .f32)
    (p : Fin 160) (s : Fin 17) (t : Fin 50) :
    rows v W b (ix3 p s t) = pred (fun e t => W (ix2 e t)) (fun t => b (ix1 t)) (fun d e => v (ix3 p d e)) s t := by
  unfold rows pred
  by_cases h : s.val < 16
  · rw [dif_pos h]
    refine (concatenate_pair_apply_left 1 _ _ concatenates_S160x16x50_S160x1x50_S160x17x50_d1 (ix3 p s t) rfl
      (ix3 p ⟨s.val, h⟩ t) (fun b => by match b with | ⟨0, _⟩ => rfl | ⟨1, _⟩ => rfl | ⟨2, _⟩ => rfl)).trans ?_
    rw [fcRows_apply]
    unfold fc
    simp only [relu16_apply]
  · rw [dif_neg h]
    refine (concatenate_pair_apply_right 1 _ _ concatenates_S160x16x50_S160x1x50_S160x17x50_d1 (ix3 p s t) rfl rfl
      (ix3 p ⟨0, Nat.one_pos⟩ t) (fun b hb => by
        match b with
        | ⟨0, _⟩ => rfl
        | ⟨1, _⟩ => exact absurd rfl hb
        | ⟨2, _⟩ => rfl)
      (by show 0 + 16 = s.val; have := s.isLt; omega)).trans ?_
    rw [fcMean_apply]
    unfold fc
    simp only [meanV_apply]

/-! ## The block -/

theorem msgA_apply (x0 : Vec Ideal S160x16x512 .bf16) (x1 : Vec Ideal S160x16x256 .bf16) (p : Fin 160) (d : Fin 16) (e : Fin 256) :
    msgA x0 x1 (ix3 p d e) = x0 (ix3 p d ⟨0 + e.val, by have := e.isLt; omega⟩) + x1 (ix3 p d e) := by
  unfold msgA
  rw [addf_apply, shapeCast_self, shapeCast_self, slice_cols 0 (by decide)]

theorem msgB_apply (x0 : Vec Ideal S160x16x512 .bf16) (x1 : Vec Ideal S160x16x256 .bf16) (p : Fin 160) (d : Fin 16) (e : Fin 256) :
    msgB x0 x1 (ix3 p d e) = x0 (ix3 p d ⟨256 + e.val, by have := e.isLt; omega⟩) + x1 (ix3 p d e) := by
  unfold msgB
  rw [addf_apply, shapeCast_self, shapeCast_self, slice_cols 256 (by decide)]

/-- The block at node p and lane f: the node value of the node's two mailboxes, as the blocks hold them. -/
theorem body_apply (x0 : Vec Ideal S160x16x512 .bf16) (x1 : Vec Ideal S160x16x256 .bf16) (x2 : Vec Ideal S256x50 .f32) (x3 : Vec Ideal S50 .f32)
    (p : Fin 160) (f : Fin 50) :
    body x0 x1 x2 x3 (ix2 p f)
      = node (fun e t => x2 (ix2 e t)) (fun t => x3 (ix1 t))
          (fun d e => x0 (ix3 p d ⟨0 + e.val, by have := e.isLt; omega⟩) + x1 (ix3 p d e))
          (fun d e => x0 (ix3 p d ⟨256 + e.val, by have := e.isLt; omega⟩) + x1 (ix3 p d e)) f := by
  unfold body node
  show chalf * poolRows (F := Ideal) (heads _) (ix2 p f) + chalf * poolRows (F := Ideal) (heads _) (ix2 p f) = _
  rw [pooled_apply, pooled_apply]
  have ea : rowsOf (rows (msgA x0 x1) (truncf .bf16 x2 bitsLt_bf16_f32) x3) p
      = pred (fun e t => x2 (ix2 e t)) (fun t => x3 (ix1 t)) (fun d e => x0 (ix3 p d ⟨0 + e.val, by have := e.isLt; omega⟩) + x1 (ix3 p d e)) := by
    funext s t
    show rows _ _ _ (ix3 p s t) = _
    rw [rows_apply]
    simp only [msgA_apply, truncf_apply]
  have eb : rowsOf (rows (msgB x0 x1) (truncf .bf16 x2 bitsLt_bf16_f32) x3) p
      = pred (fun e t => x2 (ix2 e t)) (fun t => x3 (ix1 t)) (fun d e => x0 (ix3 p d ⟨256 + e.val, by have := e.isLt; omega⟩) + x1 (ix3 p d e)) := by
    funext s t
    show rows _ _ _ (ix3 p s t) = _
    rw [rows_apply]
    simp only [msgB_apply, truncf_apply]
  rw [ea, eb]

end Cert.KerRead

end
-- ==== Proof.LibTake.lean ====
/- General lemmas for reading a row gather at an index: 32-bit words in `0 … 9999` under the signed comparisons, a
   reduction by `and` of an array of ones, and `stablehlo.gather` of whole rows of a rank-2 table at a column of start
   indices — what `jnp.take(x, i, axis=0)` lowers to — read at a result index. -/
import Idealize.ShloMosaic.PureOps.Ideal
import Idealize.ShloMosaic.Lib.ValueIdx
import Idealize.ShloMosaic.Lib.ReduceAll

namespace Cert.LibTake

open Idealize.ShloMosaic Idealize.ShloMosaic.ValueIdx

/-! ## Words in `0 … 9999` -/

theorem zero_toInt : (0#32 : BitVec 32).toInt = 0 := by decide
theorem w9999_toInt : (9999#32 : BitVec 32).toInt = 9999 := by decide

/-- A word at most 9999 read unsigned reads the same signed. -/
theorem toInt_of_le {w : BitVec 32} (h : w.toNat ≤ 9999) : w.toInt = (w.toNat : Int) :=
  BitVec.toInt_eq_toNat_of_lt (by omega)

/-- Such a word is not below zero … -/
theorem cmpi_slt_zero {w : BitVec 32} (h : w.toNat ≤ 9999) : IntOp.cmpi .slt w 0#32 = 0#1 :=
  eq_zero_of_ne_one fun e => by
    have := IntOp.cmpi_slt.1 e
    rw [toInt_of_le h, zero_toInt] at this
    omega
/-- … is at least zero … -/
theorem cmpi_sge_zero {w : BitVec 32} (h : w.toNat ≤ 9999) : IntOp.cmpi .sge w 0#32 = 1#1 :=
  IntOp.cmpi_sge.2 (by rw [toInt_of_le h, zero_toInt]; omega)
/-- … and at most 9999, read signed. -/
theorem cmpi_sle_9999 {w : BitVec 32} (h : w.toNat ≤ 9999) : IntOp.cmpi .sle w 9999#32 = 1#1 :=
  IntOp.cmpi_sle.2 (by rw [toInt_of_le h, w9999_toInt]; omega)

/-- Read signed and made a natural number, it is its unsigned value. -/
theorem toInt_toNat_of_le {w : BitVec 32} (h : w.toNat ≤ 9999) : w.toInt.toNat = w.toNat := by
  rw [toInt_of_le h]; rfl

/-! ## A reduction by `and` of ones -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

/-! ## Whole rows of a rank-2 table gathered at a column of start indices -/

section Rows
variable {α : Type}

/-- `jnp.take(x, i, axis=0)`'s dimension numbers for a table `[R, W]`, start indices `[N, 1]` and a result `[N, W]`:
    offset axis 1, collapsed axis 0, the start index naming axis 0, slices of one row. -/
abbrev rowsDims (R N W : Nat)
    (wf : GatherDims.WF ⟨2, ![R, W]⟩ ⟨2, ![N, 1]⟩ ⟨2, ![N, W]⟩ [1] [0] [] [0] [] 1 ![1, W]) :
    GatherDims ⟨2, ![R, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

/-- The gather read at `(r, c)`: the table at column `c` of the row the start index `idx[r, 0]` names, read signed and
    clamped into `[0, R − 1]`. -/
theorem gather_rows_apply {R N W w : Nat} (hR : 0 < R)
    (wf : GatherDims.WF ⟨2, ![R, W]⟩ ⟨2, ![N, 1]⟩ ⟨2, ![N, W]⟩ [1] [0] [] [0] [] 1 ![1, W])
    (x : (⟨2, ![R, W]⟩ : Shape).Idx → α) (idx : IVec ⟨2, ![N, 1]⟩ w) (r : Fin N) (c : Fin W) :
    Host.gather (rowsDims R N W wf) x idx (ix2 r c)
      = x (ix2 ⟨min (idx (ix2 r ⟨0, Nat.one_pos⟩)).toInt.toNat (R - 1), by omega⟩ c) := by
  have hsi : ∀ q, (rowsDims R N W wf).siIdx (ix2 r c) q = ix2 r ⟨0, Nat.one_pos⟩ := by
    intro q
    funext b; refine Fin.ext ?_
    match b with
    | ⟨0, _⟩ => rfl
    | ⟨1, _⟩ => exact Nat.lt_one_iff.mp q.isLt
  unfold Host.gather
  congr 1
  funext a
  refine Fin.ext ?_
  show (rowsDims R N W wf).start (ix2 r c) idx a + (rowsDims R N W wf).batchCoord (ix2 r c) a
    + (rowsDims R N W wf).offCoord (ix2 r c) a = _
  rw [GatherDims.batchCoord_eq_zero _ _ _ List.not_mem_nil]
  match a with
  | ⟨0, h0⟩ =>
    have hm : (⟨0, h0⟩ : Fin (⟨2, ![R, W]⟩ : Shape).rank) ∈ (rowsDims R N W wf).startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm, hsi]
    rfl
  | ⟨1, _⟩ =>
    unfold GatherDims.start
    rw [dif_neg (fun h => absurd (congrArg Fin.val (List.mem_singleton.mp h) : (1 : ℕ) = 0) Nat.one_ne_zero)]
    simp only [Nat.zero_add]
    rfl

end Rows

end Cert.LibTake
-- ==== Proof.Mailbox.lean ====
/- A node's mailbox from the program's arguments: message d of node n pairs edge n·16 + d with the table row its source
   index names. The index is first moved up by the table's height where it is negative, then read signed and clamped
   into the table: the indexing both programs apply before they gather. The result G of the whole computation is the
   node value (Spec.node) of each node's two mailboxes. -/
import Idealize.ShloMosaic.Lib.ValueIdx
import proofs.«173407_j73976516706888_2_alg».proof.Proof.Spec
import proofs.«173407_j73976516706888_2_alg».proof.Proof.LibTake

noncomputable section

namespace Cert.Mailbox

open Idealize.ShloMosaic Idealize.ShloMosaic.ValueIdx Cert.Spec

/-- A negative index counts from the end of the table. -/
def normIdx (w : BitVec 32) : BitVec 32 := Scalar.select (IntOp.cmpi .slt w 0#32) (IntOp.addi w 20000#32) w

/-- The table row edge r reads. -/
def srcRow (x3 : (⟨1, ![320000]⟩ : Shape).Idx → BitVec 32) (r : Fin 320000) : Fin 20000 :=
  ⟨min (normIdx (x3 (ix1 r))).toInt.toNat (20000 - 1), by omega⟩

/-- Edge d of node n. -/
def edgeRow (n : Fin 20000) (d : Fin 16) : Fin 320000 := ⟨n.val * 16 + d.val, by have := n.isLt; have := d.isLt; omega⟩

/-- Node n's mailbox over a table: the source's row plus the edge's. -/
def mailbox (tbl : (⟨2, ![20000, 256]⟩ : Shape).Idx → EReal) (x1 : (⟨2, ![320000, 256]⟩ : Shape).Idx → EReal)
    (x3 : (⟨1, ![320000]⟩ : Shape).Idx → BitVec 32) (n : Fin 20000) (d : Fin 16) (e : Fin 256) : EReal :=
  tbl (ix2 (srcRow x3 (edgeRow n d)) e) + x1 (ix2 (edgeRow n d) e)

def Wm (x5 : (⟨2, ![256, 50]⟩ : Shape).Idx → EReal) (e : Fin 256) (t : Fin 50) : EReal := x5 (ix2 e t)
def bv (x6 : (⟨1, ![50]⟩ : Shape).Idx → EReal) (t : Fin 50) : EReal := x6 (ix1 t)

/-- The whole result: entry (n, f) is node n's value at lane f. -/
def G (x0 : (⟨2, ![20000, 256]⟩ : Shape).Idx → EReal) (x1 : (⟨2, ![320000, 256]⟩ : Shape).Idx → EReal)
    (x2 : (⟨2, ![20000, 256]⟩ : Shape).Idx → EReal) (x3 : (⟨1, ![320000]⟩ : Shape).Idx → BitVec 32)
    (x5 : (⟨2, ![256, 50]⟩ : Shape).Idx → EReal) (x6 : (⟨1, ![50]⟩ : Shape).Idx → EReal) :
    (⟨2, ![20000, 50]⟩ : Shape).Idx → EReal :=
  fun i => node (Wm x5) (bv x6) (mailbox x0 x1 x3 (i 0)) (mailbox x2 x1 x3 (i 0)) (i 1)

end Cert.Mailbox

end
-- ==== Proof.KerFinal.lean ====
/- From blocks to the array. The grid has 125 points; point t works on nodes 160 t … 160 t + 159: its blocks of the
   gathered table rows and of the edge rows are those nodes' rows, the weights and bias are whole, and the block it writes
   back is rows 160 t … of the result. Before the region, the host lays the two tables side by side, gathers the row each
   edge's source index names (moved up by the table's height where negative, clamped into the table) and groups the
   edges 16 to a node: columns 0 … 255 of a gathered row are the first table's row, columns 256 … 511 the second's.
   So what point t writes back is block t of G, the blocks cover the result, and the run ends with the result at G. -/
import proofs.«173407_j73976516706888_2_alg».proof.Proof.Gen.KernelIdeal.Value
import proofs.«173407_j73976516706888_2_alg».proof.Proof.KerRead
import proofs.«173407_j73976516706888_2_alg».proof.Proof.Mailbox
import Idealize.ShloMosaic.Lib.StableHlo.Run

noncomputable section

namespace Cert.KerFinal

open Cert.KernelIdeal Cert.KernelIdeal.Gen Cert.KernelIdeal.Value Cert.KernelIdeal.Body Idealize.ShloMosaic Idealize.ShloMosaic.TcCoe
  Idealize.SL.Sem Idealize.ShloMosaic.ValueIdx Cert.Spec Cert.Idx Cert.Mailbox Cert.Layout
open Idealize.ShloMosaic.Pipeline (Dat)

variable (m : (ℓ : Loc nD τ sig) → Buf (Elt Ideal) ℓ) (ρ : Dev nD → PrngReg)

/-- Core c's argument arrays. -/
abbrev A0 (c : Dev nD) : S20000x256.Idx → EReal := m ((c : Thread nD τ).loc main_arg0)
abbrev A1 (c : Dev nD) : S320000x256.Idx → EReal := m ((c : Thread nD τ).loc main_arg1)
abbrev A2 (c : Dev nD) : S20000x256.Idx → EReal := m ((c : Thread nD τ).loc main_arg2)
abbrev A3 (c : Dev nD) : S320000.Idx → BitVec 32 := m ((c : Thread nD τ).loc main_arg3)
abbrev A5 (c : Dev nD) : S256x50.Idx → EReal := m ((c : Thread nD τ).loc main_arg5)
abbrev A6 (c : Dev nD) : S50.Idx → EReal := m ((c : Thread nD τ).loc main_arg6)

/-- The result as a function of core c's argument arrays. -/
abbrev GG (c : Dev nD) : S20000x50.Idx → EReal := G (A0 m c) (A1 m c) (A2 m c) (A3 m c) (A5 m c) (A6 m c)

/-! ## The arrays the region finds -/

/-- The start index of edge r, after the negative ones are moved up. -/
theorem start_apply (x3 : S320000.Idx → BitVec 32) (r : Fin 320000) :
    broadcastInDim S320000x1 ![0] bcast_S320000_S320000x1_0
      (select (cmpi .slt x3 (broadcastInDim S320000 ![] bcast_S_S320000 (constantI S_ 32 0#32)))
        (addi x3 (broadcastInDim S320000 ![] bcast_S_S320000 (constantI S_ 32 20000#32))) x3) (ix2 r ⟨0, Nat.one_pos⟩)
      = normIdx (x3 (ix1 r)) := by
  rw [broadcastInDim_apply _ bcast_S320000_S320000x1_0 _ _ (ix1 r) (fun a => by
    match a with
    | ⟨0, _⟩ => show r.val = if (320000 : Nat) = 1 then 0 else r.val; rw [if_neg (by decide)])]
  rfl

/-- The gathered rows of the two tables laid side by side, 16 edges to a node. -/
theorem v10_eq (c : Dev nD) : (V m c main_v10 : S20000x16x512.Idx → EReal) =
    shapeCast S20000x16x512 (Host.gather gather_S20000x512_S320000x1_S320000x512_1_0_n_n_0_1_1512
      (truncf .bf16 (concatenate S20000x512 1 [⟨S20000x256, A0 m c⟩, ⟨S20000x256, A2 m c⟩] concatenates_S20000x256_S20000x256_S20000x512_d1 : FVec Ideal S20000x512 .f32) bitsLt_bf16_f32)
      (broadcastInDim S320000x1 ![0] bcast_S320000_S320000x1_0
        (select (cmpi .slt (A3 m c) (broadcastInDim S320000 ![] bcast_S_S320000 (constantI S_ 32 0#32)))
          (addi (A3 m c) (broadcastInDim S320000 ![] bcast_S_S320000 (constantI S_ 32 20000#32))) (A3 m c))))
      shapeCasts_S320000x512_S20000x16x512 := by
  dsimp only [Gen.V, Gen.hostOps0]; after_results; rfl

/-- The edge rows, 16 to a node. -/
theorem v11_eq (c : Dev nD) : (V m c main_v11 : S20000x16x256.Idx → EReal) =
    shapeCast S20000x16x256 (truncf .bf16 (A1 m c : FVec Ideal S320000x256 .f32) bitsLt_bf16_f32 : FVec Ideal S320000x256 .bf16) shapeCasts_S320000x256_S20000x16x256 := by
  dsimp only [Gen.V, Gen.hostOps0]; after_results; rfl

/-- Column k of edge (n, d)'s gathered row, before the tables are told apart. -/
theorem v10_apply (c : Dev nD) (n : Fin 20000) (d : Fin 16) (k : Fin 512) :
    (V m c main_v10 : S20000x16x512.Idx → EReal) (ix3 n d k)
      = (concatenate S20000x512 1 [⟨S20000x256, A0 m c⟩, ⟨S20000x256, A2 m c⟩] concatenates_S20000x256_S20000x256_S20000x512_d1 : S20000x512.Idx → EReal)
          (ix2 (srcRow (A3 m c) (edgeRow n d)) k) := by
  rw [v10_eq]
  rw [shapeCast_apply _ shapeCasts_S320000x512_S20000x16x512 (ix3 n d k) (ix2 (edgeRow n d) k) (by
    rw [Shape.rowMajor_val_two, Shape.rowMajor_val_three]; rfl)]
  rw [show gather_S20000x512_S320000x1_S320000x512_1_0_n_n_0_1_1512
      = Cert.LibTake.rowsDims 20000 320000 512 gather_S20000x512_S320000x1_S320000x512_1_0_n_n_0_1_1512_wf from rfl,
    Cert.LibTake.gather_rows_apply (by decide), truncf_apply]
  exact congrArg _ (ext2 _ _ (congrArg (fun w : BitVec 32 => min w.toInt.toNat (20000 - 1)) (start_apply (A3 m c) (edgeRow n d))) rfl)

/-- Columns 0 … 255 of a gathered row: the first table's row. -/
theorem v10_lo (c : Dev nD) (n : Fin 20000) (d : Fin 16) (e : Fin 256) :
    (V m c main_v10 : S20000x16x512.Idx → EReal) (ix3 n d ⟨0 + e.val, by have := e.isLt; omega⟩)
      = A0 m c (ix2 (srcRow (A3 m c) (edgeRow n d)) e) := by
  rw [v10_apply]
  exact concatenate_pair_apply_left 1 _ _ concatenates_S20000x256_S20000x256_S20000x512_d1 _ rfl
    (ix2 (srcRow (A3 m c) (edgeRow n d)) e) (fun b => by
      match b with
      | ⟨0, _⟩ => rfl
      | ⟨1, _⟩ => exact (Nat.zero_add _).symm)

/-- Columns 256 … 511: the second table's row. -/
theorem v10_hi (c : Dev nD) (n : Fin 20000) (d : Fin 16) (e : Fin 256) :
    (V m c main_v10 : S20000x16x512.Idx → EReal) (ix3 n d ⟨256 + e.val, by have := e.isLt; omega⟩)
      = A2 m c (ix2 (srcRow (A3 m c) (edgeRow n d)) e) := by
  rw [v10_apply]
  exact concatenate_pair_apply_right 1 _ _ concatenates_S20000x256_S20000x256_S20000x512_d1 _ rfl rfl
    (ix2 (srcRow (A3 m c) (edgeRow n d)) e) (fun b hb => by
      match b with
      | ⟨0, _⟩ => rfl
      | ⟨1, _⟩ => exact absurd rfl hb)
    (by show e.val + 256 = 256 + e.val; omega)

theorem v11_apply (c : Dev nD) (n : Fin 20000) (d : Fin 16) (e : Fin 256) :
    (V m c main_v11 : S20000x16x256.Idx → EReal) (ix3 n d e) = A1 m c (ix2 (edgeRow n d) e) := by
  rw [v11_eq]
  rw [shapeCast_apply _ shapeCasts_S320000x256_S20000x16x256 (ix3 n d e) (ix2 (edgeRow n d) e) (by
    rw [Shape.rowMajor_val_two, Shape.rowMajor_val_three]; rfl)]
  rfl

/-! ## The blocks -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 125 points: the node windows and the result move with the point, the weights and the
    bias stay. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 125 := by
  have h : t.val < grid0.N := t.isLt
  have hN : grid0.N = 125 := N_0
  omega

/-- Point t's block of the gathered rows is nodes 160 t … of the array. -/
theorem iblk0_apply (c : Dev nD) (t : Fin cfg0.N) (p : Fin 160) (d : Fin 16) (k : Fin 512) (n : Fin 20000) (hn : n.val = 160 * t.val + p.val) :
    (iblk m c 0 t : Vec Ideal S160x16x512 .bf16) (ix3 p d k) = (V m c main_v10 : S20000x16x512.Idx → EReal) (ix3 n d k) := by
  obtain ⟨e0, e1, e2, -⟩ := idx_facts t
  unfold iblk
  rw [View.read_apply]
  show (V m c main_v10 : S20000x16x512.Idx → EReal) _ = _
  refine congrArg (V m c main_v10 : S20000x16x512.Idx → EReal) (funext fun a => Fin.ext ?_)
  match a with
  | ⟨0, _⟩ => show win0_0.index t (0 : Fin 3) * 160 + 1 * p.val = n.val; rw [e0, hn]; omega
  | ⟨1, _⟩ => show win0_0.index t (1 : Fin 3) * 16 + 1 * d.val = d.val; rw [e1]; omega
  | ⟨2, _⟩ => show win0_0.index t (2 : Fin 3) * 512 + 1 * k.val = k.val; rw [e2]; omega

theorem iblk1_apply (c : Dev nD) (t : Fin cfg0.N) (p : Fin 160) (d : Fin 16) (e : Fin 256) (n : Fin 20000) (hn : n.val = 160 * t.val + p.val) :
    (iblk m c 1 t : Vec Ideal S160x16x256 .bf16) (ix3 p d e) = (V m c main_v11 : S20000x16x256.Idx → EReal) (ix3 n d e) := by
  obtain ⟨-, -, -, e0, e1, e2, -⟩ := idx_facts t
  unfold iblk
  rw [View.read_apply]
  show (V m c main_v11 : S20000x16x256.Idx → EReal) _ = _
  refine congrArg (V m c main_v11 : S20000x16x256.Idx → EReal) (funext fun a => Fin.ext ?_)
  match a with
  | ⟨0, _⟩ => show win0_1.index t (0 : Fin 3) * 160 + 1 * p.val = n.val; rw [e0, hn]; omega
  | ⟨1, _⟩ => show win0_1.index t (1 : Fin 3) * 16 + 1 * d.val = d.val; rw [e1]; omega
  | ⟨2, _⟩ => show win0_1.index t (2 : Fin 3) * 256 + 1 * e.val = e.val; rw [e2]; omega

theorem iblk2_apply (c : Dev nD) (t : Fin cfg0.N) (e : Fin 256) (u : Fin 50) :
    (iblk m c 2 t : Vec Ideal S256x50 .f32) (ix2 e u) = A5 m c (ix2 e u) := by
  obtain ⟨-, -, -, -, -, -, e0, e1, -⟩ := idx_facts t
  unfold iblk
  rw [View.read_apply]
  show (V m c main_arg5 : S256x50.Idx → EReal) _ = _
  rw [V_main_arg5]
  refine congrArg (A5 m c) (funext fun a => Fin.ext ?_)
  match a with
  | ⟨0, _⟩ => show win0_2.index t (0 : Fin 2) * 256 + 1 * e.val = e.val; rw [e0]; omega
  | ⟨1, _⟩ => show win0_2.index t (1 : Fin 2) * 50 + 1 * u.val = u.val; rw [e1]; omega

theorem iblk3_apply (c : Dev nD) (t : Fin cfg0.N) (u : Fin 50) :
    (iblk m c 3 t : Vec Ideal S50 .f32) (ix1 u) = A6 m c (ix1 u) := by
  obtain ⟨-, -, -, -, -, -, -, -, e0, -⟩ := idx_facts t
  unfold iblk
  rw [View.read_apply]
  show (V m c main_arg6 : S50.Idx → EReal) _ = _
  rw [V_main_arg6]
  refine congrArg (A6 m c) (funext fun a => Fin.ext ?_)
  match a with
  | ⟨0, _⟩ => show win0_3.index t (0 : Fin 1) * 50 + 1 * u.val = u.val; rw [e0]; omega

/-- The node value depends on its five arguments only. -/
theorem node_congr {W W' : Fin 256 → Fin 50 → EReal} {b b' : Fin 50 → EReal} {xm xm' xa xa' : Fin 16 → Fin 256 → EReal} (f : Fin 50)
    (hW : W = W') (hb : b = b') (hm : xm = xm') (ha : xa = xa') : node W b xm xa f = node W' b' xm' xa' f := by
  subst hW hb hm ha; rfl

/-- What point t writes back is block t of G. -/
theorem flushed_eq (c : Dev nD) (t : Fin cfg0.N) :
    (dats m 0 c).flushed 4 t = ((cfg0.win 4).blk t).view.read (Elt Ideal) (GG m c) := by
  rw [Value.flushed4, Body.out_eq, View.canon_unit_zero hz2]
  simp only [View.ld_unit_zero (S := S160x16x512) hz3, View.ld_unit_zero (S := S160x16x256) hz3,
    View.ld_unit_zero (S := S256x50) hz2, View.ld_unit_zero (S := S50) hz1]
  obtain ⟨-, -, -, -, -, -, -, -, -, e40, e41⟩ := idx_facts t
  have ht := point_lt t
  funext j
  obtain ⟨p, f, rfl⟩ : ∃ (p : Fin 160) (f : Fin 50), j = ix2 p f := ⟨j 0, j 1, eq_ix2 j⟩
  have hp := p.isLt
  let n : Fin 20000 := ⟨160 * t.val + p.val, by omega⟩
  have hn : n.val = 160 * t.val + p.val := rfl
  show body (iblk m c 0 t) (iblk m c 1 t) (iblk m c 2 t) (iblk m c 3 t) (ix2 p f) = GG m c (((cfg0.win 4).blk t).view.emb (ix2 p f))
  rw [show ((cfg0.win 4).blk t).view.emb (ix2 p f) = ix2 n f from ext2 _ _
    (by show win0_4.index t (0 : Fin 2) * 160 + 1 * p.val = 160 * t.val + p.val; rw [e40]; omega)
    (by show win0_4.index t (1 : Fin 2) * 50 + 1 * f.val = f.val; rw [e41]; omega)]
  refine (Cert.KerRead.body_apply (iblk m c 0 t) (iblk m c 1 t) (iblk m c 2 t) (iblk m c 3 t) p f).trans ?_
  show _ = node (Wm (A5 m c)) (bv (A6 m c)) (mailbox (A0 m c) (A1 m c) (A3 m c) n) (mailbox (A2 m c) (A1 m c) (A3 m c) n) f
  refine node_congr f ?_ ?_ ?_ ?_
  · funext e u; exact iblk2_apply m c t e u
  · funext u; exact iblk3_apply m c t u
  · funext d e
    rw [iblk0_apply m c t p d _ n hn, iblk1_apply m c t p d e n hn, v10_lo, v11_apply]
    rfl
  · funext d e
    rw [iblk0_apply m c t p d _ n hn, iblk1_apply m c t p d e n hn, v10_hi, v11_apply]
    rfl

/-- An index of the result is in point t's block iff each coordinate is in the block's range. -/
theorem mem_blk (t : Fin cfg0.N) (i : S20000x50.Idx) :
    i ∈ ((cfg0.win 4).blk t).view.set ↔ ∀ a : Fin 2, win0_4.index t a * S160x50.size a ≤ (i a).val ∧ (i a).val < win0_4.index t a * S160x50.size a + S160x50.size a := by
  show i ∈ ((View.whole main_v12).slice (win0_4.rect t)).set ↔ _
  rw [View.set_slice_whole, Rect.mem_set_unit]
  exact Iff.rfl

/-- Every entry of the result is in the block of the point its node belongs to. -/
theorem cover (i : S20000x50.Idx) : ∃ t : Fin cfg0.N, (cfg0.win 4).flush t = true ∧ i ∈ ((cfg0.win 4).blk t).view.set := by
  have hi0 : (i 0).val < 20000 := (i 0).isLt
  have hi1 : (i 1).val < 50 := (i 1).isLt
  have hN : grid0.N = 125 := N_0
  have hlt : (i 0).val / 160 < cfg0.N := by show _ < grid0.N; omega
  refine ⟨⟨(i 0).val / 160, hlt⟩, flush0_4 _, ?_⟩
  obtain ⟨-, -, -, -, -, -, -, -, -, e40, e41⟩ := idx_facts ⟨(i 0).val / 160, hlt⟩
  rw [mem_blk]
  intro a
  match a with
  | ⟨0, _⟩ =>
    show win0_4.index _ (0 : Fin 2) * 160 ≤ (i 0).val ∧ (i 0).val < win0_4.index _ (0 : Fin 2) * 160 + 160
    rw [e40]
    show (i 0).val / 160 * 160 ≤ (i 0).val ∧ (i 0).val < (i 0).val / 160 * 160 + 160
    omega
  | ⟨1, _⟩ =>
    show win0_4.index _ (1 : Fin 2) * 50 ≤ (i 1).val ∧ (i 1).val < win0_4.index _ (1 : Fin 2) * 50 + 50
    rw [e41]
    omega

/-- The result array after the run is G. -/
theorem final (c : Dev nD) : (dats m 0 c).arrAt 4 cfg0.N = GG m c :=
  (dats m 0 c).arrAt_eq_of_cover 4 (GG m c) (fun t _ => flushed_eq m c t) cover

/-- The kernel's run with the result array at G of the arguments, the arguments unchanged. -/
theorem run : θ_run defs (onTc (τ := τ) (main (F := Ideal))) ⟨m, fun _ => 0, ρ⟩ fun r => ∀ c : Dev nD,
      r.2.mem ((c : Thread nD τ).loc main_v12) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KerFinal

end
-- ==== Proof.RefRowsA.lean ====
/- The reference's 17 prediction rows of a node, read entry by entry: the gathered table rows plus the edge rows are the
   node's mailbox; each message goes through relu and the affine map; the mean message likewise; the 16 rows and the
   mean's row are laid one after the other. At node n this is Spec.pred of the mailbox. -/
import proofs.«173407_j73976516706888_2_alg».proof.Proof.Gen.ReferenceIdeal.Read
import proofs.«173407_j73976516706888_2_alg».proof.Proof.Mailbox
import proofs.«173407_j73976516706888_2_alg».proof.Proof.Idx

noncomputable section

namespace Cert.RefRowsA

open Cert.ReferenceIdeal Cert.ReferenceIdeal.Gen Cert.ReferenceIdeal.Read Idealize.ShloMosaic Idealize.ShloMosaic.ValueIdx Cert.Spec Cert.Idx Cert.Mailbox

variable (x0 : (⟨S20000x256, .f32⟩ : BufTy).Contents (Elt Ideal)) (x1 : (⟨S320000x256, .f32⟩ : BufTy).Contents (Elt Ideal))
  (x2 : (⟨S20000x256, .f32⟩ : BufTy).Contents (Elt Ideal))
  (x3 : (⟨S320000, .i32⟩ : BufTy).Contents (Elt Ideal)) (x5 : (⟨S256x50, .f32⟩ : BufTy).Contents (Elt Ideal))
  (x6 : (⟨S50, .f32⟩ : BufTy).Contents (Elt Ideal))

/-- The start index of edge r, after the negative ones are moved up. -/
theorem start_apply (r : Fin 320000) :
    val_main_v5 (F := Ideal) x3 (ix2 r ⟨0, Nat.one_pos⟩) = normIdx (x3 (ix1 r)) := by
  rw [val_main_v5_apply, show idx_main_v5 (ix2 r ⟨0, Nat.one_pos⟩) = ix1 r from ext1 _ _ rfl,
    val_main_v4_apply, val_main_v1_apply, val_main_v3_apply, val_main_v0_apply, val_main_v2_apply,
    val_main_c_apply, val_main_c_0_apply]
  rfl

/-- The gathered table row of edge r. -/
theorem gathered_apply (r : Fin 320000) (e : Fin 256) :
    val_main_v6 (F := Ideal) x0 x3 (ix2 r e) = x0 (ix2 (srcRow x3 r) e) := by
  unfold val_main_v6
  rw [show gather_S20000x256_S320000x1_S320000x256_1_0_n_n_0_1_1256
      = Cert.LibTake.rowsDims 20000 320000 256 gather_S20000x256_S320000x1_S320000x256_1_0_n_n_0_1_1256_wf from rfl,
    Cert.LibTake.gather_rows_apply (by decide)]
  exact congrArg _ (ext2 _ _ (congrArg (fun w : BitVec 32 => min w.toInt.toNat (20000 - 1)) (start_apply x3 r)) rfl)

/-- The node's mailbox. -/
theorem mailbox_apply (n : Fin 20000) (d : Fin 16) (e : Fin 256) :
    val_main_v8 (F := Ideal) x0 x1 x3 (ix3 n d e) = mailbox x0 x1 x3 n d e := by
  rw [val_main_v8_apply, val_main_v7_apply,
    show idx_main_v8 (ix3 n d e) = ix2 (edgeRow n d) e from ext2 _ _
      (by show ((n.val * 16 + d.val) * 256 + e.val) / 256 = n.val * 16 + d.val; have := e.isLt; omega)
      (by show ((n.val * 16 + d.val) * 256 + e.val) % 256 = e.val; have := e.isLt; omega),
    gathered_apply]
  rfl

/-- A message after relu. -/
theorem relu_apply (n : Fin 20000) (d : Fin 16) (e : Fin 256) :
    val_main_v18 (F := Ideal) x0 x1 x3 (ix3 n d e) = max (mailbox x0 x1 x3 n d e) 0 := by
  rw [val_main_v18_apply, val_main_call0_v0_apply, val_main_call0_cst_apply, mailbox_apply]
  show max _ (Ideal.ofBits .f32 0x00000000#32) = _
  rw [Ideal.ofBits_zero_f32]

/-- The bias broadcast over the rows. -/
theorem bias16_apply (n : Fin 20000) (d : Fin 16) (t : Fin 50) :
    val_main_v21 (F := Ideal) x6 (ix3 n d t) = bv x6 t := by
  rw [val_main_v21_apply, val_main_v20_apply]
  exact congrArg x6 (ext1 _ _ rfl)

/-- A message's prediction row. -/
theorem row_apply (n : Fin 20000) (d : Fin 16) (t : Fin 50) :
    val_main_v22 (F := Ideal) x0 x1 x3 x5 x6 (ix3 n d t) = fc (Wm x5) (bv x6) (mailbox x0 x1 x3 n d) t := by
  rw [val_main_v22_apply, val_main_v19_apply, bias16_apply]
  have el : ∀ k, lidx_main_v19 (ix3 n d t) k = ix3 n d k := fun k => ext3 _ _ rfl rfl rfl
  have er : ∀ k, ridx_main_v19 (ix3 n d t) k = ix2 k t := fun k => ext2 _ _ rfl rfl
  simp only [el, er, relu_apply]
  rfl

/-- The mean message. -/
theorem mean_apply (n : Fin 20000) (e : Fin 256) :
    val_main_v26 (F := Ideal) x0 x1 x3 (ix3 n ⟨0, Nat.one_pos⟩ e) = rowMean (mailbox x0 x1 x3 n) e := by
  rw [val_main_v26_apply, val_main_v25_apply, val_main_cst_3_apply, val_main_v24_apply, val_main_v23_apply,
    val_main_cst_apply]
  have e1 : ∀ k, idx_main_v23 (idx_main_v24 (ix3 n ⟨0, Nat.one_pos⟩ e)) k = ix3 n k e := fun k => ext3 _ _ rfl rfl rfl
  simp only [e1, mailbox_apply]
  show Ideal.div (Ideal.ofBits .f32 0x00000000#32 + _) _ = _
  rw [Ideal.ofBits_zero_f32, zero_add]
  rfl

/-- The mean message after relu. -/
theorem relu_mean_apply (n : Fin 20000) (e : Fin 256) :
    val_main_v27 (F := Ideal) x0 x1 x3 (ix3 n ⟨0, Nat.one_pos⟩ e) = max (rowMean (mailbox x0 x1 x3 n) e) 0 := by
  rw [val_main_v27_apply, val_main_call1_v0_apply, val_main_call1_cst_apply, mean_apply]
  show max _ (Ideal.ofBits .f32 0x00000000#32) = _
  rw [Ideal.ofBits_zero_f32]

theorem bias1_apply (n : Fin 20000) (t : Fin 50) :
    val_main_v30 (F := Ideal) x6 (ix3 n ⟨0, Nat.one_pos⟩ t) = bv x6 t := by
  rw [val_main_v30_apply, val_main_v29_apply]
  exact congrArg x6 (ext1 _ _ rfl)

/-- The mean message's prediction row. -/
theorem mean_row_apply (n : Fin 20000) (t : Fin 50) :
    val_main_v31 (F := Ideal) x0 x1 x3 x5 x6 (ix3 n ⟨0, Nat.one_pos⟩ t) = fc (Wm x5) (bv x6) (rowMean (mailbox x0 x1 x3 n)) t := by
  rw [val_main_v31_apply, val_main_v28_apply, bias1_apply]
  have el : ∀ k, lidx_main_v28 (ix3 n ⟨0, Nat.one_pos⟩ t) k = ix3 n ⟨0, Nat.one_pos⟩ k := fun k => ext3 _ _ rfl rfl rfl
  have er : ∀ k, ridx_main_v28 (ix3 n ⟨0, Nat.one_pos⟩ t) k = ix2 k t := fun k => ext2 _ _ rfl rfl
  simp only [el, er, relu_mean_apply]
  rfl

/-- The 17 rows: the 16 messages' rows, then the mean's. -/
theorem pred_apply (n : Fin 20000) (s : Fin 17) (t : Fin 50) :
    val_main_v32 (F := Ideal) x0 x1 x3 x5 x6 (ix3 n s t) = pred (Wm x5) (bv x6) (mailbox x0 x1 x3 n) s t := by
  unfold val_main_v32 pred
  by_cases h : s.val < 16
  · rw [dif_pos h, ← row_apply]
    exact concatenate_pair_apply_left 1 _ _ concatenates_S20000x16x50_S20000x1x50_S20000x17x50_d1 (ix3 n s t) rfl
      (ix3 n ⟨s.val, h⟩ t) (fun b => by match b with | ⟨0, _⟩ => rfl | ⟨1, _⟩ => rfl | ⟨2, _⟩ => rfl)
  · rw [dif_neg h, ← mean_row_apply]
    exact concatenate_pair_apply_right 1 _ _ concatenates_S20000x16x50_S20000x1x50_S20000x17x50_d1 (ix3 n s t) rfl rfl
      (ix3 n ⟨0, Nat.one_pos⟩ t) (fun b hb => by
        match b with
        | ⟨0, _⟩ => rfl
        | ⟨1, _⟩ => exact absurd rfl hb
        | ⟨2, _⟩ => rfl)
      (by show 0 + 16 = s.val; have := s.isLt; omega)

end Cert.RefRowsA

end
-- ==== Proof.RefRowsB.lean ====
/- The reference's 17 prediction rows of a node, read entry by entry: the gathered table rows plus the edge rows are the
   node's mailbox; each message goes through relu and the affine map; the mean message likewise; the 16 rows and the
   mean's row are laid one after the other. At node n this is Spec.pred of the mailbox. -/
import proofs.«173407_j73976516706888_2_alg».proof.Proof.Gen.ReferenceIdeal.Read
import proofs.«173407_j73976516706888_2_alg».proof.Proof.Mailbox
import proofs.«173407_j73976516706888_2_alg».proof.Proof.Idx

noncomputable section

namespace Cert.RefRowsB

open Cert.ReferenceIdeal Cert.ReferenceIdeal.Gen Cert.ReferenceIdeal.Read Idealize.ShloMosaic Idealize.ShloMosaic.ValueIdx Cert.Spec Cert.Idx Cert.Mailbox

variable (x0 : (⟨S20000x256, .f32⟩ : BufTy).Contents (Elt Ideal)) (x1 : (⟨S320000x256, .f32⟩ : BufTy).Contents (Elt Ideal))
  (x2 : (⟨S20000x256, .f32⟩ : BufTy).Contents (Elt Ideal))
  (x3 : (⟨S320000, .i32⟩ : BufTy).Contents (Elt Ideal)) (x5 : (⟨S256x50, .f32⟩ : BufTy).Contents (Elt Ideal))
  (x6 : (⟨S50, .f32⟩ : BufTy).Contents (Elt Ideal))

/-- The start index of edge r, after the negative ones are moved up. -/
theorem start_apply (r : Fin 320000) :
    val_main_v14 (F := Ideal) x3 (ix2 r ⟨0, Nat.one_pos⟩) = normIdx (x3 (ix1 r)) := by
  rw [val_main_v14_apply, show idx_main_v14 (ix2 r ⟨0, Nat.one_pos⟩) = ix1 r from ext1 _ _ rfl,
    val_main_v13_apply, val_main_v10_apply, val_main_v12_apply, val_main_v9_apply, val_main_v11_apply,
    val_main_c_1_apply, val_main_c_2_apply]
  rfl

/-- The gathered table row of edge r. -/
theorem gathered_apply (r : Fin 320000) (e : Fin 256) :
    val_main_v15 (F := Ideal) x2 x3 (ix2 r e) = x2 (ix2 (srcRow x3 r) e) := by
  unfold val_main_v15
  rw [show gather_S20000x256_S320000x1_S320000x256_1_0_n_n_0_1_1256
      = Cert.LibTake.rowsDims 20000 320000 256 gather_S20000x256_S320000x1_S320000x256_1_0_n_n_0_1_1256_wf from rfl,
    Cert.LibTake.gather_rows_apply (by decide)]
  exact congrArg _ (ext2 _ _ (congrArg (fun w : BitVec 32 => min w.toInt.toNat (20000 - 1)) (start_apply x3 r)) rfl)

/-- The node's mailbox. -/
theorem mailbox_apply (n : Fin 20000) (d : Fin 16) (e : Fin 256) :
    val_main_v17 (F := Ideal) x1 x2 x3 (ix3 n d e) = mailbox x2 x1 x3 n d e := by
  rw [val_main_v17_apply, val_main_v16_apply,
    show idx_main_v17 (ix3 n d e) = ix2 (edgeRow n d) e from ext2 _ _
      (by show ((n.val * 16 + d.val) * 256 + e.val) / 256 = n.val * 16 + d.val; have := e.isLt; omega)
      (by show ((n.val * 16 + d.val) * 256 + e.val) % 256 = e.val; have := e.isLt; omega),
    gathered_apply]
  rfl

/-- A message after relu. -/
theorem relu_apply (n : Fin 20000) (d : Fin 16) (e : Fin 256) :
    val_main_v33 (F := Ideal) x1 x2 x3 (ix3 n d e) = max (mailbox x2 x1 x3 n d e) 0 := by
  rw [val_main_v33_apply, val_main_call2_v0_apply, val_main_call2_cst_apply, mailbox_apply]
  show max _ (Ideal.ofBits .f32 0x00000000#32) = _
  rw [Ideal.ofBits_zero_f32]

/-- The bias broadcast over the rows. -/
theorem bias16_apply (n : Fin 20000) (d : Fin 16) (t : Fin 50) :
    val_main_v36 (F := Ideal) x6 (ix3 n d t) = bv x6 t := by
  rw [val_main_v36_apply, val_main_v35_apply]
  exact congrArg x6 (ext1 _ _ rfl)

/-- A message's prediction row. -/
theorem row_apply (n : Fin 20000) (d : Fin 16) (t : Fin 50) :
    val_main_v37 (F := Ideal) x1 x2 x3 x5 x6 (ix3 n d t) = fc (Wm x5) (bv x6) (mailbox x2 x1 x3 n d) t := by
  rw [val_main_v37_apply, val_main_v34_apply, bias16_apply]
  have el : ∀ k, lidx_main_v34 (ix3 n d t) k = ix3 n d k := fun k => ext3 _ _ rfl rfl rfl
  have er : ∀ k, ridx_main_v34 (ix3 n d t) k = ix2 k t := fun k => ext2 _ _ rfl rfl
  simp only [el, er, relu_apply]
  rfl

/-- The mean message. -/
theorem mean_apply (n : Fin 20000) (e : Fin 256) :
    val_main_v41 (F := Ideal) x1 x2 x3 (ix3 n ⟨0, Nat.one_pos⟩ e) = rowMean (mailbox x2 x1 x3 n) e := by
  rw [val_main_v41_apply, val_main_v40_apply, val_main_cst_5_apply, val_main_v39_apply, val_main_v38_apply,
    val_main_cst_4_apply]
  have e1 : ∀ k, idx_main_v38 (idx_main_v39 (ix3 n ⟨0, Nat.one_pos⟩ e)) k = ix3 n k e := fun k => ext3 _ _ rfl rfl rfl
  simp only [e1, mailbox_apply]
  show Ideal.div (Ideal.ofBits .f32 0x00000000#32 + _) _ = _
  rw [Ideal.ofBits_zero_f32, zero_add]
  rfl

/-- The mean message after relu. -/
theorem relu_mean_apply (n : Fin 20000) (e : Fin 256) :
    val_main_v42 (F := Ideal) x1 x2 x3 (ix3 n ⟨0, Nat.one_pos⟩ e) = max (rowMean (mailbox x2 x1 x3 n) e) 0 := by
  rw [val_main_v42_apply, val_main_call3_v0_apply, val_main_call3_cst_apply, mean_apply]
  show max _ (Ideal.ofBits .f32 0x00000000#32) = _
  rw [Ideal.ofBits_zero_f32]

theorem bias1_apply (n : Fin 20000) (t : Fin 50) :
    val_main_v45 (F := Ideal) x6 (ix3 n ⟨0, Nat.one_pos⟩ t) = bv x6 t := by
  rw [val_main_v45_apply, val_main_v44_apply]
  exact congrArg x6 (ext1 _ _ rfl)

/-- The mean message's prediction row. -/
theorem mean_row_apply (n : Fin 20000) (t : Fin 50) :
    val_main_v46 (F := Ideal) x1 x2 x3 x5 x6 (ix3 n ⟨0, Nat.one_pos⟩ t) = fc (Wm x5) (bv x6) (rowMean (mailbox x2 x1 x3 n)) t := by
  rw [val_main_v46_apply, val_main_v43_apply, bias1_apply]
  have el : ∀ k, lidx_main_v43 (ix3 n ⟨0, Nat.one_pos⟩ t) k = ix3 n ⟨0, Nat.one_pos⟩ k := fun k => ext3 _ _ rfl rfl rfl
  have er : ∀ k, ridx_main_v43 (ix3 n ⟨0, Nat.one_pos⟩ t) k = ix2 k t := fun k => ext2 _ _ rfl rfl
  simp only [el, er, relu_mean_apply]
  rfl

/-- The 17 rows: the 16 messages' rows, then the mean's. -/
theorem pred_apply (n : Fin 20000) (s : Fin 17) (t : Fin 50) :
    val_main_v47 (F := Ideal) x1 x2 x3 x5 x6 (ix3 n s t) = pred (Wm x5) (bv x6) (mailbox x2 x1 x3 n) s t := by
  unfold val_main_v47 pred
  by_cases h : s.val < 16
  · rw [dif_pos h, ← row_apply]
    exact concatenate_pair_apply_left 1 _ _ concatenates_S20000x16x50_S20000x1x50_S20000x17x50_d1 (ix3 n s t) rfl
      (ix3 n ⟨s.val, h⟩ t) (fun b => by match b with | ⟨0, _⟩ => rfl | ⟨1, _⟩ => rfl | ⟨2, _⟩ => rfl)
  · rw [dif_neg h, ← mean_row_apply]
    exact concatenate_pair_apply_right 1 _ _ concatenates_S20000x16x50_S20000x1x50_S20000x17x50_d1 (ix3 n s t) rfl rfl
      (ix3 n ⟨0, Nat.one_pos⟩ t) (fun b hb => by
        match b with
        | ⟨0, _⟩ => rfl
        | ⟨1, _⟩ => exact absurd rfl hb
        | ⟨2, _⟩ => rfl)
      (by show 0 + 16 = s.val; have := s.isLt; omega)

end Cert.RefRowsB

end
-- ==== Proof.RefAttnA.lean ====
/- The reference's attention over a node's 17 prediction rows, read entry by entry: the rows are cut into 5 heads of 10
   lanes and the heads moved in front of the rows; rows are scored against each other within a head, the scores go
   through a softmax, the rows are combined with those weights, the heads are moved back and the 17 rows averaged.
   At node n and lane f this is the node's pooled value of its 17 rows (Spec.pooled). -/
import proofs.«173407_j73976516706888_2_alg».proof.Proof.Gen.ReferenceIdeal.Read
import proofs.«173407_j73976516706888_2_alg».proof.Proof.Spec
import proofs.«173407_j73976516706888_2_alg».proof.Proof.Idx

noncomputable section

namespace Cert.RefAttnA

open Cert.ReferenceIdeal Cert.ReferenceIdeal.Gen Cert.ReferenceIdeal.Read Idealize.ShloMosaic Idealize.ShloMosaic.ValueIdx Cert.Spec Cert.Idx

variable (x0 : (⟨S20000x256, .f32⟩ : BufTy).Contents (Elt Ideal)) (x1 : (⟨S320000x256, .f32⟩ : BufTy).Contents (Elt Ideal))
  (x3 : (⟨S320000, .i32⟩ : BufTy).Contents (Elt Ideal)) (x5 : (⟨S256x50, .f32⟩ : BufTy).Contents (Elt Ideal))
  (x6 : (⟨S50, .f32⟩ : BufTy).Contents (Elt Ideal))

/-- Node n's 17 prediction rows. -/
def P (n : Fin 20000) (s : Fin 17) (t : Fin 50) : EReal := val_main_v32 (F := Ideal) x0 x1 x3 x5 x6 (ix3 n s t)

/-- The rows with the heads in front: entry (n, h, t, d) is row t at lane d of head h. -/
theorem heads_apply (n : Fin 20000) (h : Fin 5) (t : Fin 17) (d : Fin 10) :
    val_main_v49 (F := Ideal) x0 x1 x3 x5 x6 (ix4 n h t d) = P x0 x1 x3 x5 x6 n t (lane h d) := by
  rw [val_main_v49_apply, val_main_v48_apply]
  unfold P
  refine congrArg _ (ext3 _ _ ?_ ?_ ?_)
  · show ((((n.val * 17 + t.val) * 5 + h.val) * 10 + d.val) / 850 = n.val)
    have := t.isLt; have := h.isLt; have := d.isLt; omega
  · show ((((n.val * 17 + t.val) * 5 + h.val) * 10 + d.val) / 50 % 17 = t.val)
    have := t.isLt; have := h.isLt; have := d.isLt; omega
  · show ((((n.val * 17 + t.val) * 5 + h.val) * 10 + d.val) % 50 = h.val * 10 + d.val)
    have := t.isLt; have := h.isLt; have := d.isLt; omega

/-- The scaled scores. -/
theorem score_apply (n : Fin 20000) (h : Fin 5) (s t : Fin 17) :
    val_main_v52 (F := Ideal) x0 x1 x3 x5 x6 (ix4 n h s t) = score (P x0 x1 x3 x5 x6 n) h s t := by
  rw [val_main_v52_apply, val_main_v50_apply, val_main_v51_apply, val_main_cst_6_apply]
  have el : ∀ k, lidx_main_v50 (ix4 n h s t) k = ix4 n h s k := fun k => ext4 _ _ rfl rfl rfl rfl
  have er : ∀ k, ridx_main_v50 (ix4 n h s t) k = ix4 n h t k := fun k => ext4 _ _ rfl rfl rfl rfl
  simp only [el, er, heads_apply]
  rfl

/-- A row of scores, as a function of its position. -/
theorem score_row (n : Fin 20000) (h : Fin 5) (s : Fin 17) (hr : Shape.Reduces S20000x5x17x17 [3] S20000x5x17) :
    (val_main_v52 (F := Ideal) x0 x1 x3 x5 x6 ∘ hr.lift (ix3 n h s)) = score (P x0 x1 x3 x5 x6 n) h s := by
  funext t
  show val_main_v52 (F := Ideal) x0 x1 x3 x5 x6 (hr.lift (ix3 n h s) t) = _
  rw [show hr.lift (ix3 n h s) t = ix4 n h s t from ext4 _ _ rfl rfl rfl rfl]
  exact score_apply x0 x1 x3 x5 x6 n h s t

/-- The row maximum the softmax subtracts. -/
theorem max_apply (n : Fin 20000) (h : Fin 5) (s : Fin 17) :
    val_main_v55 (F := Ideal) x0 x1 x3 x5 x6 (ix3 n h s) = rowMax (score (P x0 x1 x3 x5 x6 n) h s) := by
  rw [val_main_v55_apply, val_main_v54_apply, val_main_cst_8_apply]
  unfold val_main_v53
  rw [Host.reduce_eq_fold_single FloatOps.maximumf _ _ reducesTo_S20000x5x17x17_S20000x5x17_d3 (by decide) h_S_, score_row]
  rfl

/-- The exponentials of the shifted scores. -/
theorem exp_apply (n : Fin 20000) (h : Fin 5) (s t : Fin 17) :
    val_main_v59 (F := Ideal) x0 x1 x3 x5 x6 (ix4 n h s t) = expRow (score (P x0 x1 x3 x5 x6 n) h s) t := by
  rw [val_main_v59_apply, val_main_v58_apply, val_main_v57_apply, val_main_v56_apply, score_apply]
  rw [show idx_main_v56 (idx_main_v57 (ix4 n h s t)) = ix3 n h s from ext3 _ _ rfl rfl rfl, max_apply]
  rfl

/-- The softmax weights. -/
theorem soft_apply (n : Fin 20000) (h : Fin 5) (s t : Fin 17) :
    val_main_v63 (F := Ideal) x0 x1 x3 x5 x6 (ix4 n h s t) = soft (score (P x0 x1 x3 x5 x6 n) h s) t := by
  rw [val_main_v63_apply, val_main_v62_apply, val_main_v61_apply, val_main_v60_apply, val_main_cst_9_apply, exp_apply]
  have e : ∀ k, idx_main_v60 (idx_main_v61 (idx_main_v62 (ix4 n h s t))) k = ix4 n h s k :=
    fun k => ext4 _ _ rfl rfl rfl rfl
  simp only [e, exp_apply]
  show Ideal.div _ (Ideal.ofBits .f32 0x00000000#32 + _) = _
  rw [Ideal.ofBits_zero_f32, zero_add]
  rfl

/-- Row s combined with its weights, in head h at the head's lane d. -/
theorem attend_apply (n : Fin 20000) (h : Fin 5) (s : Fin 17) (d : Fin 10) :
    val_main_v64 (F := Ideal) x0 x1 x3 x5 x6 (ix4 n h s d) = attend (P x0 x1 x3 x5 x6 n) h s (lane h d) := by
  rw [val_main_v64_apply]
  have el : ∀ k, lidx_main_v64 (ix4 n h s d) k = ix4 n h s k := fun k => ext4 _ _ rfl rfl rfl rfl
  have er : ∀ k, ridx_main_v64 (ix4 n h s d) k = ix4 n h k d := fun k => ext4 _ _ rfl rfl rfl rfl
  simp only [el, er, soft_apply, heads_apply]
  rfl

/-- The heads moved back behind the rows: row s at lane f, read in f's own head. -/
theorem merged_apply (n : Fin 20000) (s : Fin 17) (f : Fin 50) :
    val_main_v66 (F := Ideal) x0 x1 x3 x5 x6 (ix3 n s f) = attend (P x0 x1 x3 x5 x6 n) (headOf f) s f := by
  rw [val_main_v66_apply, val_main_v65_apply]
  rw [show idx_main_v65 (idx_main_v66 (ix3 n s f)) = ix4 n (headOf f) s ⟨f.val % 10, Nat.mod_lt _ (by decide)⟩ from
    ext4 _ _ (by show ((n.val * 17 + s.val) * 50 + f.val) / 850 = n.val; have := s.isLt; have := f.isLt; omega)
      (by show ((n.val * 17 + s.val) * 50 + f.val) / 10 % 5 = f.val / 10; have := s.isLt; have := f.isLt; omega)
      (by show ((n.val * 17 + s.val) * 50 + f.val) / 50 % 17 = s.val; have := s.isLt; have := f.isLt; omega)
      (by show ((n.val * 17 + s.val) * 50 + f.val) % 10 = f.val % 10; have := s.isLt; have := f.isLt; omega)]
  rw [attend_apply, lane_headOf]

/-- The average over the 17 rows. -/
theorem pooled_apply (n : Fin 20000) (f : Fin 50) :
    val_main_v69 (F := Ideal) x0 x1 x3 x5 x6 (ix2 n f) = pooled (P x0 x1 x3 x5 x6 n) f := by
  rw [val_main_v69_apply, val_main_v68_apply, val_main_cst_11_apply, val_main_v67_apply, val_main_cst_10_apply]
  have e : ∀ k, idx_main_v67 (ix2 n f) k = ix3 n k f := fun k => ext3 _ _ rfl rfl rfl
  simp only [e, merged_apply]
  show Ideal.div (Ideal.ofBits .f32 0x00000000#32 + _) _ = _
  rw [Ideal.ofBits_zero_f32, zero_add]
  rfl

/-- Half the pooled value. -/
theorem half_apply (n : Fin 20000) (f : Fin 50) :
    val_main_v71 (F := Ideal) x0 x1 x3 x5 x6 (ix2 n f) = chalf * pooled (P x0 x1 x3 x5 x6 n) f := by
  rw [val_main_v71_apply, val_main_v70_apply, val_main_cst_12_apply, pooled_apply]
  rfl

end Cert.RefAttnA

end
-- ==== Proof.RefAttnB.lean ====
/- The reference's attention over a node's 17 prediction rows, read entry by entry: the rows are cut into 5 heads of 10
   lanes and the heads moved in front of the rows; rows are scored against each other within a head, the scores go
   through a softmax, the rows are combined with those weights, the heads are moved back and the 17 rows averaged.
   At node n and lane f this is the node's pooled value of its 17 rows (Spec.pooled). -/
import proofs.«173407_j73976516706888_2_alg».proof.Proof.Gen.ReferenceIdeal.Read
import proofs.«173407_j73976516706888_2_alg».proof.Proof.Spec
import proofs.«173407_j73976516706888_2_alg».proof.Proof.Idx

noncomputable section

namespace Cert.RefAttnB

open Cert.ReferenceIdeal Cert.ReferenceIdeal.Gen Cert.ReferenceIdeal.Read Idealize.ShloMosaic Idealize.ShloMosaic.ValueIdx Cert.Spec Cert.Idx

variable (x1 : (⟨S320000x256, .f32⟩ : BufTy).Contents (Elt Ideal)) (x2 : (⟨S20000x256, .f32⟩ : BufTy).Contents (Elt Ideal))
  (x3 : (⟨S320000, .i32⟩ : BufTy).Contents (Elt Ideal)) (x5 : (⟨S256x50, .f32⟩ : BufTy).Contents (Elt Ideal))
  (x6 : (⟨S50, .f32⟩ : BufTy).Contents (Elt Ideal))

/-- Node n's 17 prediction rows. -/
def P (n : Fin 20000) (s : Fin 17) (t : Fin 50) : EReal := val_main_v47 (F := Ideal) x1 x2 x3 x5 x6 (ix3 n s t)

/-- The rows with the heads in front: entry (n, h, t, d) is row t at lane d of head h. -/
theorem heads_apply (n : Fin 20000) (h : Fin 5) (t : Fin 17) (d : Fin 10) :
    val_main_v73 (F := Ideal) x1 x2 x3 x5 x6 (ix4 n h t d) = P x1 x2 x3 x5 x6 n t (lane h d) := by
  rw [val_main_v73_apply, val_main_v72_apply]
  unfold P
  refine congrArg _ (ext3 _ _ ?_ ?_ ?_)
  · show ((((n.val * 17 + t.val) * 5 + h.val) * 10 + d.val) / 850 = n.val)
    have := t.isLt; have := h.isLt; have := d.isLt; omega
  · show ((((n.val * 17 + t.val) * 5 + h.val) * 10 + d.val) / 50 % 17 = t.val)
    have := t.isLt; have := h.isLt; have := d.isLt; omega
  · show ((((n.val * 17 + t.val) * 5 + h.val) * 10 + d.val) % 50 = h.val * 10 + d.val)
    have := t.isLt; have := h.isLt; have := d.isLt; omega

/-- The scaled scores. -/
theorem score_apply (n : Fin 20000) (h : Fin 5) (s t : Fin 17) :
    val_main_v76 (F := Ideal) x1 x2 x3 x5 x6 (ix4 n h s t) = score (P x1 x2 x3 x5 x6 n) h s t := by
  rw [val_main_v76_apply, val_main_v74_apply, val_main_v75_apply, val_main_cst_13_apply]
  have el : ∀ k, lidx_main_v74 (ix4 n h s t) k = ix4 n h s k := fun k => ext4 _ _ rfl rfl rfl rfl
  have er : ∀ k, ridx_main_v74 (ix4 n h s t) k = ix4 n h t k := fun k => ext4 _ _ rfl rfl rfl rfl
  simp only [el, er, heads_apply]
  rfl

/-- A row of scores, as a function of its position. -/
theorem score_row (n : Fin 20000) (h : Fin 5) (s : Fin 17) (hr : Shape.Reduces S20000x5x17x17 [3] S20000x5x17) :
    (val_main_v76 (F := Ideal) x1 x2 x3 x5 x6 ∘ hr.lift (ix3 n h s)) = score (P x1 x2 x3 x5 x6 n) h s := by
  funext t
  show val_main_v76 (F := Ideal) x1 x2 x3 x5 x6 (hr.lift (ix3 n h s) t) = _
  rw [show hr.lift (ix3 n h s) t = ix4 n h s t from ext4 _ _ rfl rfl rfl rfl]
  exact score_apply x1 x2 x3 x5 x6 n h s t

/-- The row maximum the softmax subtracts. -/
theorem max_apply (n : Fin 20000) (h : Fin 5) (s : Fin 17) :
    val_main_v79 (F := Ideal) x1 x2 x3 x5 x6 (ix3 n h s) = rowMax (score (P x1 x2 x3 x5 x6 n) h s) := by
  rw [val_main_v79_apply, val_main_v78_apply, val_main_cst_15_apply]
  unfold val_main_v77
  rw [Host.reduce_eq_fold_single FloatOps.maximumf _ _ reducesTo_S20000x5x17x17_S20000x5x17_d3 (by decide) h_S_, score_row]
  rfl

/-- The exponentials of the shifted scores. -/
theorem exp_apply (n : Fin 20000) (h : Fin 5) (s t : Fin 17) :
    val_main_v83 (F := Ideal) x1 x2 x3 x5 x6 (ix4 n h s t) = expRow (score (P x1 x2 x3 x5 x6 n) h s) t := by
  rw [val_main_v83_apply, val_main_v82_apply, val_main_v81_apply, val_main_v80_apply, score_apply]
  rw [show idx_main_v80 (idx_main_v81 (ix4 n h s t)) = ix3 n h s from ext3 _ _ rfl rfl rfl, max_apply]
  rfl

/-- The softmax weights. -/
theorem soft_apply (n : Fin 20000) (h : Fin 5) (s t : Fin 17) :
    val_main_v87 (F := Ideal) x1 x2 x3 x5 x6 (ix4 n h s t) = soft (score (P x1 x2 x3 x5 x6 n) h s) t := by
  rw [val_main_v87_apply, val_main_v86_apply, val_main_v85_apply, val_main_v84_apply, val_main_cst_16_apply, exp_apply]
  have e : ∀ k, idx_main_v84 (idx_main_v85 (idx_main_v86 (ix4 n h s t))) k = ix4 n h s k :=
    fun k => ext4 _ _ rfl rfl rfl rfl
  simp only [e, exp_apply]
  show Ideal.div _ (Ideal.ofBits .f32 0x00000000#32 + _) = _
  rw [Ideal.ofBits_zero_f32, zero_add]
  rfl

/-- Row s combined with its weights, in head h at the head's lane d. -/
theorem attend_apply (n : Fin 20000) (h : Fin 5) (s : Fin 17) (d : Fin 10) :
    val_main_v88 (F := Ideal) x1 x2 x3 x5 x6 (ix4 n h s d) = attend (P x1 x2 x3 x5 x6 n) h s (lane h d) := by
  rw [val_main_v88_apply]
  have el : ∀ k, lidx_main_v88 (ix4 n h s d) k = ix4 n h s k := fun k => ext4 _ _ rfl rfl rfl rfl
  have er : ∀ k, ridx_main_v88 (ix4 n h s d) k = ix4 n h k d := fun k => ext4 _ _ rfl rfl rfl rfl
  simp only [el, er, soft_apply, heads_apply]
  rfl

/-- The heads moved back behind the rows: row s at lane f, read in f's own head. -/
theorem merged_apply (n : Fin 20000) (s : Fin 17) (f : Fin 50) :
    val_main_v90 (F := Ideal) x1 x2 x3 x5 x6 (ix3 n s f) = attend (P x1 x2 x3 x5 x6 n) (headOf f) s f := by
  rw [val_main_v90_apply, val_main_v89_apply]
  rw [show idx_main_v89 (idx_main_v90 (ix3 n s f)) = ix4 n (headOf f) s ⟨f.val % 10, Nat.mod_lt _ (by decide)⟩ from
    ext4 _ _ (by show ((n.val * 17 + s.val) * 50 + f.val) / 850 = n.val; have := s.isLt; have := f.isLt; omega)
      (by show ((n.val * 17 + s.val) * 50 + f.val) / 10 % 5 = f.val / 10; have := s.isLt; have := f.isLt; omega)
      (by show ((n.val * 17 + s.val) * 50 + f.val) / 50 % 17 = s.val; have := s.isLt; have := f.isLt; omega)
      (by show ((n.val * 17 + s.val) * 50 + f.val) % 10 = f.val % 10; have := s.isLt; have := f.isLt; omega)]
  rw [attend_apply, lane_headOf]

/-- The average over the 17 rows. -/
theorem pooled_apply (n : Fin 20000) (f : Fin 50) :
    val_main_v93 (F := Ideal) x1 x2 x3 x5 x6 (ix2 n f) = pooled (P x1 x2 x3 x5 x6 n) f := by
  rw [val_main_v93_apply, val_main_v92_apply, val_main_cst_18_apply, val_main_v91_apply, val_main_cst_17_apply]
  have e : ∀ k, idx_main_v91 (ix2 n f) k = ix3 n k f := fun k => ext3 _ _ rfl rfl rfl
  simp only [e, merged_apply]
  show Ideal.div (Ideal.ofBits .f32 0x00000000#32 + _) _ = _
  rw [Ideal.ofBits_zero_f32, zero_add]
  rfl

/-- Half the pooled value. -/
theorem half_apply (n : Fin 20000) (f : Fin 50) :
    val_main_v95 (F := Ideal) x1 x2 x3 x5 x6 (ix2 n f) = chalf * pooled (P x1 x2 x3 x5 x6 n) f := by
  rw [val_main_v95_apply, val_main_v94_apply, val_main_cst_19_apply, pooled_apply]
  rfl

end Cert.RefAttnB

end
-- ==== Proof.RefG.lean ====
/- The reference's result is G: at entry (n, f) it adds the halves of the two branches' pooled values, each the pooled
   value of the prediction rows of node n's mailbox over that branch's table. -/
import proofs.«173407_j73976516706888_2_alg».proof.Proof.RefRowsA
import proofs.«173407_j73976516706888_2_alg».proof.Proof.RefRowsB
import proofs.«173407_j73976516706888_2_alg».proof.Proof.RefAttnA
import proofs.«173407_j73976516706888_2_alg».proof.Proof.RefAttnB

noncomputable section

namespace Cert.RefG

open Cert.ReferenceIdeal Cert.ReferenceIdeal.Gen Cert.ReferenceIdeal.Read Idealize.ShloMosaic Idealize.ShloMosaic.ValueIdx Cert.Spec Cert.Idx Cert.Mailbox

theorem ref_eq (x0 : (⟨S20000x256, .f32⟩ : BufTy).Contents (Elt Ideal)) (x1 : (⟨S320000x256, .f32⟩ : BufTy).Contents (Elt Ideal))
    (x2 : (⟨S20000x256, .f32⟩ : BufTy).Contents (Elt Ideal)) (x3 : (⟨S320000, .i32⟩ : BufTy).Contents (Elt Ideal))
    (x5 : (⟨S256x50, .f32⟩ : BufTy).Contents (Elt Ideal)) (x6 : (⟨S50, .f32⟩ : BufTy).Contents (Elt Ideal)) :
    val_main_v96 (F := Ideal) x0 x1 x2 x3 x5 x6 = G x0 x1 x2 x3 x5 x6 := by
  funext i
  obtain ⟨n, f, rfl⟩ : ∃ (n : Fin 20000) (f : Fin 50), i = ix2 n f := ⟨i 0, i 1, eq_ix2 i⟩
  rw [val_main_v96_apply, Cert.RefAttnA.half_apply, Cert.RefAttnB.half_apply]
  have ea : Cert.RefAttnA.P x0 x1 x3 x5 x6 n = pred (Wm x5) (bv x6) (mailbox x0 x1 x3 n) :=
    funext fun s => funext fun t => Cert.RefRowsA.pred_apply x0 x1 x3 x5 x6 n s t
  have eb : Cert.RefAttnB.P x1 x2 x3 x5 x6 n = pred (Wm x5) (bv x6) (mailbox x2 x1 x3 n) :=
    funext fun s => funext fun t => Cert.RefRowsB.pred_apply x1 x2 x3 x5 x6 n s t
  rw [ea, eb]
  rfl

end Cert.RefG

end
-- ==== Proof.lean ====
/- A message-passing layer over 20000 nodes of fixed in-degree 16. A node's mailbox pairs each of its 16 edges with a
   table row chosen by the edge's source index. Each message goes through relu and an affine map to 50 lanes, the mean
   message likewise, giving 17 rows; the 50 lanes are 5 heads of 10; within a head the rows attend to each other through
   a softmax of their scaled dot products; the attended rows are averaged. Two such predictions, over two tables, are
   blended half and half.

   The kernel gathers ONE table made of the two laid side by side, works on 160 nodes per grid point, and computes a
   head by zeroing the other heads' lanes and summing over all fifty; the reference gathers each table, works on all
   nodes at once, and computes a head by cutting the lanes into 5 x 10 and contracting over the ten. At the ideal values
   both are the same function G of the arguments, entry by entry: a sum over fifty lanes with forty zero terms is the
   sum over the ten, and a sum over five heads of rows that vanish outside their head is the row read in each lane's own
   head. Only x + 0 = x and x * 0 = 0 are used of the extended reals, so the precondition is never opened.

   The three frames: the two kernels' are the generated frame certificates; the reference's is its generated run with
   the result dropped. The ideal pass rewrote nothing, so preserves is trivial. -/
import proofs.«173407_j73976516706888_2_alg».proof.Defs
import proofs.«173407_j73976516706888_2_alg».proof.Proof.Gen.Kernel
import proofs.«173407_j73976516706888_2_alg».proof.Proof.Gen.Kernel.Skeleton
import proofs.«173407_j73976516706888_2_alg».proof.Proof.Gen.Kernel.Launch
import proofs.«173407_j73976516706888_2_alg».proof.Proof.Gen.Kernel.Points
import proofs.«173407_j73976516706888_2_alg».proof.Proof.Gen.Kernel.Frame
import proofs.«173407_j73976516706888_2_alg».proof.Proof.Gen.KernelIdeal
import proofs.«173407_j73976516706888_2_alg».proof.Proof.Gen.KernelIdeal.Skeleton
import proofs.«173407_j73976516706888_2_alg».proof.Proof.Gen.KernelIdeal.Launch
import proofs.«173407_j73976516706888_2_alg».proof.Proof.Gen.KernelIdeal.Points
import proofs.«173407_j73976516706888_2_alg».proof.Proof.Gen.KernelIdeal.Frame
import proofs.«173407_j73976516706888_2_alg».proof.Proof.Gen.ReferenceIdeal
import proofs.«173407_j73976516706888_2_alg».proof.Proof.Gen.KernelIdeal.Value
import proofs.«173407_j73976516706888_2_alg».proof.Proof.Gen.ReferenceIdeal.Run
import proofs.«173407_j73976516706888_2_alg».proof.Proof.Gen.ReferenceIdeal.Read
import proofs.«173407_j73976516706888_2_alg».proof.Proof.Gen.Pre_finite_inputs
import proofs.«173407_j73976516706888_2_alg».proof.Proof.KerFinal
import proofs.«173407_j73976516706888_2_alg».proof.Proof.RefG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at G of the arguments, which agree. -/
theorem algebraic : Cert.algebraic_KernelIdeal_ReferenceIdeal := by
  intro m ρ m' ρ' _ hagree
  refine ⟨fun c => Cert.KerFinal.GG m c, Cert.KerFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, Cert.RefG.ref_eq]
  obtain ⟨h0, h1, h2, h3, h4, h5, h6⟩ := hagree c
  rw [h0, h1, h2, h3, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
